-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S2000x128 : Shape := ⟨2, ![2000, 128]⟩
abbrev S2000x1 : Shape := ⟨2, ![2000, 1]⟩
abbrev S1700000x128 : Shape := ⟨2, ![1700000, 128]⟩
abbrev S1x128 : Shape := ⟨2, ![1, 128]⟩
abbrev S100000x64 : Shape := ⟨2, ![100000, 64]⟩
abbrev S2000x64 : Shape := ⟨2, ![2000, 64]⟩
abbrev S1700000x64 : Shape := ⟨2, ![1700000, 64]⟩
abbrev S1x64 : Shape := ⟨2, ![1, 64]⟩

abbrev nBuf : Space → Nat
  | .hbm => 62
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S100000x128, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000x128, .f32⟩
  | .hbm, ⟨41, _⟩ => ⟨S_, .f32⟩
  | .hbm, ⟨42, _⟩ => ⟨S100000x128, .f32⟩
  | .hbm, ⟨43, _⟩ => ⟨S1700000x1, .i32⟩
  | .hbm, ⟨44, _⟩ => ⟨S100000x128, .f32⟩
  | .hbm, ⟨45, _⟩ => ⟨S1x128, .f32⟩
  | .hbm, ⟨46, _⟩ => ⟨S100000x64, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S_, .f32⟩
  | .hbm, ⟨57, _⟩ => ⟨S100000x64, .f32⟩
  | .hbm, ⟨58, _⟩ => ⟨S1700000x1, .i32⟩
  | .hbm, ⟨59, _⟩ => ⟨S100000x64, .f32⟩
  | .hbm, ⟨60, _⟩ => ⟨S1x64, .f32⟩
  | .hbm, ⟨61, _⟩ => ⟨S100000x64, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x1, .f32⟩
  | .local _ .vmem, ⟨4, _⟩ => ⟨S2000x1, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x1, .f32⟩
  | .local _ .vmem, ⟨10, _⟩ => ⟨S2000x1, .f32⟩
  | .local _ .vmem, ⟨11, _⟩ => ⟨S1x128, .f32⟩
  | .local _ .vmem, ⟨12, _⟩ => ⟨S128x64, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S2000x64, .f32⟩
  | .local _ .vmem, ⟨17, _⟩ => ⟨S2000x1, .f32⟩
  | .local _ .vmem, ⟨18, _⟩ => ⟨S2000x1, .f32⟩
  | .local _ .vmem, ⟨19, _⟩ => ⟨S1x64, .f32⟩
  | .local _ .vmem, ⟨20, _⟩ => ⟨S2000x64, .f32⟩
  | .local _ .vmem, ⟨21, _⟩ => ⟨S2000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_8 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bcast_S_S100000x128 : S_.BroadcastsInDim S100000x128 (![] : Fin 0 → Fin S100000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  broadcasts_S2000x1_S2000x64 : S2000x1.Broadcasts S2000x64
  inb_S2000x64_S2000x64_0_0 : ∀ a, (![0, 0] : Fin 2 → Nat) a + S2000x64.size a ≤ S2000x64.size a
  h_S2000x64 : 0 < S2000x64.numel
  bcast_S_S100000x64 : S_.BroadcastsInDim S100000x64 (![] : Fin 0 → Fin S100000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  scatter_S100000_S1700000x1_S1700000_n_0_0_1_wf : ScatterDims.WF S100000 S1700000x1 S1700000 [] [0] [0] 1
  dot_S2000x128_S128x128_S2000x128_1_0_0_1_n_n_wf : DotDims.WF S2000x128 S128x128 S2000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S2000x128_S128x64_S2000x64_1_0_0_1_n_n_wf : DotDims.WF S2000x128 S128x64 S2000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S100000x1.size a
  hwx0_2 : ∀ i : grid0.Coords, EltTy.bits .f32 = 32 ∨ (Rect.block (s := S100000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .f32 = 32 ∨ (Rect.block (s := S100000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x64.size a ≤ S100000x64.size a
  hwx1_4 : ∀ i : grid1.Coords, EltTy.bits .f32 = 32 ∨ (Rect.block (s := S100000x64) S2000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S100000x1.size a
  hwx2_1 : ∀ i : grid2.Coords, EltTy.bits .f32 = 32 ∨ (Rect.block (s := S100000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x64.size a ≤ S100000x64.size a
  hwx2_3 : ∀ i : grid2.Coords, EltTy.bits .f32 = 32 ∨ (Rect.block (s := S100000x64) S2000x64.size (cc2_transform_3 i) (hinb2_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v28) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S2000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v40) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v41) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v42) S2000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 93
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S100000x128, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x128, .f32⟩
  | .hbm, ⟨60, _⟩ => ⟨S1700000x1, .f32⟩
  | .hbm, ⟨61, _⟩ => ⟨S1700000x128, .f32⟩
  | .hbm, ⟨62, _⟩ => ⟨S1700000x128, .f32⟩
  | .hbm, ⟨63, _⟩ => ⟨S_, .f32⟩
  | .hbm, ⟨64, _⟩ => ⟨S100000x128, .f32⟩
  | .hbm, ⟨65, _⟩ => ⟨S1700000x1, .i32⟩
  | .hbm, ⟨66, _⟩ => ⟨S100000x128, .f32⟩
  | .hbm, ⟨67, _⟩ => ⟨S1x128, .f32⟩
  | .hbm, ⟨68, _⟩ => ⟨S100000x128, .f32⟩
  | .hbm, ⟨69, _⟩ => ⟨S100000x128, .f32⟩
  | .hbm, ⟨70, _⟩ => ⟨S_, .f32⟩
  | .hbm, ⟨71, _⟩ => ⟨S100000x128, .f32⟩
  | .hbm, ⟨72, _⟩ => ⟨S100000x128, .f32⟩
  | .hbm, ⟨73, _⟩ => ⟨S100000x64, .f32⟩
  | .hbm, ⟨74, _⟩ => ⟨S_, .i32⟩
  | .hbm, ⟨75, _⟩ => ⟨S1700000, .i32⟩
  | .hbm, ⟨76, _⟩ => ⟨S1700000, .i1⟩
  | .hbm, ⟨77, _⟩ => ⟨S_, .i32⟩
  | .hbm, ⟨78, _⟩ => ⟨S1700000, .i32⟩
  | .hbm, ⟨79, _⟩ => ⟨S1700000, .i32⟩
  | .hbm, ⟨80, _⟩ => ⟨S1700000, .i32⟩
  | .hbm, ⟨81, _⟩ => ⟨S1700000x1, .i32⟩
  | .hbm, ⟨82, _⟩ => ⟨S1700000x64, .f32⟩
  | .hbm, ⟨83, _⟩ => ⟨S1700000x1, .f32⟩
  | .hbm, ⟨84, _⟩ => ⟨S1700000x64, .f32⟩
  | .hbm, ⟨85, _⟩ => ⟨S1700000x64, .f32⟩
  | .hbm, ⟨86, _⟩ => ⟨S_, .f32⟩
  | .hbm, ⟨87, _⟩ => ⟨S100000x64, .f32⟩
  | .hbm, ⟨88, _⟩ => ⟨S1700000x1, .i32⟩
  | .hbm, ⟨89, _⟩ => ⟨S100000x64, .f32⟩
  | .hbm, ⟨90, _⟩ => ⟨S1x64, .f32⟩
  | .hbm, ⟨91, _⟩ => ⟨S100000x64, .f32⟩
  | .hbm, ⟨92, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_9 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_call1_cst : Ref sig .tc := ⟨.hbm, 70, rfl⟩
abbrev main_call1_v0 : Ref sig .tc := ⟨.hbm, 71, rfl⟩
abbrev main_v50 : Ref sig .tc := ⟨.hbm, 72, rfl⟩
abbrev main_v51 : Ref sig .tc := ⟨.hbm, 73, rfl⟩
abbrev main_c_10 : Ref sig .tc := ⟨.hbm, 74, rfl⟩
abbrev main_v52 : Ref sig .tc := ⟨.hbm, 75, rfl⟩
abbrev main_v53 : Ref sig .tc := ⟨.hbm, 76, rfl⟩
abbrev main_c_11 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_12 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KernelRun.lean ====
/-
  The idealized kernel's run with its result named.

  Every weakly fair execution of the program from any memory with zero counters terminates, nothing faulting, with
  the six argument arrays as launched and with the result array holding what the fold of the program's segments
  leaves there: the three host stretches, then the first pipeline, a host stretch, the second pipeline, a host
  stretch and the third pipeline, each pipeline's arrays at what its write-backs leave. The other modules read that
  fold at the result array, one segment at a time.
-/
import proofs.«170234_j65386582114681_2_alg».proof.Proof.Gen.KernelIdeal.Frame

set_option maxRecDepth 16384

noncomputable section

namespace Cert.KernelValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array ends at the last boundary's contents, the arguments as launched. -/
theorem run_result : θ_run defs (onTc (τ := τ) (main (F := F))) ⟨m, fun _ => 0, ρ⟩ (fun r => ∀ c : Dev nD,
      r.2.mem ((c.tc : Thread nD τ).loc main_v42) = W8 m ρ c (Proc.devRef .tc main_v42)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v42 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelValue

end
-- ==== Proof.Spec.lean ====
/-
  A two-layer graph convolution over 100000 nodes and 1700000 edges (the given 1600000 and one self loop per
  node), written index by index on the extended reals, in the two arrangements the two programs use.

  Every edge e carries two index words, a source word and a destination word. A gather reads the table row named
  by a word after the word is normalised (a negative word has the number of nodes added) and then read signed and
  clamped into the table. A scatter-add lands edge e on node j exactly when the destination word, read signed and
  NOT normalised, is j. Each node n has a scale d n.

  One arrangement scales a row by d before it is gathered and scales the aggregated row by d afterwards; the
  other multiplies every gathered row by the edge's own factor (d source · 1) · d destination before it is
  aggregated. The two agree when every d n is a non-negative real number: the destination's scale is the same for
  every edge that lands on one node, and a non-negative real factor distributes over any sum of extended reals.
-/
import Idealize.ShloMosaic.PureOps.Ideal
import Idealize.ShloMosaic.Lib.ValueIdx

noncomputable section

open scoped BigOperators

namespace Cert.Spec

open Idealize.ShloMosaic Idealize.ShloMosaic.ValueIdx

/-- A word normalised as a gather index: a negative word has the number of nodes added. -/
def nrmW (w : BitVec 32) : BitVec 32 := if w.slt 0#32 then w + 100000#32 else w

/-- The node a gather reads for an index word: the word read signed and clamped into [0, 99999]. -/
def rowOf (w : BitVec 32) : Fin 100000 := ⟨min w.toInt.toNat (100000 - 1), by omega⟩

/-- A dense projection: entry (n, f) of h · w for a table h of node rows and a K×C matrix w. -/
def proj {K C : Nat} (h : Fin 100000 → Fin K → EReal) (w : (⟨2, ![K, C]⟩ : Shape).Idx → EReal)
    (n : Fin 100000) (f : Fin C) : EReal :=
  ∑ k : Fin K, h n k * w (ix2 k f)

/-- The value an edge brings to node j from a table T in the first arrangement: the row of its normalised
    source word when its destination word is j, and nothing otherwise. -/
def aggPre {C : Nat} (rowW colW : Fin 1700000 → BitVec 32) (T : Fin 100000 → Fin C → EReal)
    (j : Fin 100000) (f : Fin C) : EReal :=
  ∑ e : Fin 1700000, if (colW e).toInt = (j.val : Int) then T (rowOf (nrmW (rowW e))) f else 0

/-- The factor of edge e in the second arrangement. -/
def edgeNorm (d : Fin 100000 → EReal) (rowW colW : Fin 1700000 → BitVec 32) (e : Fin 1700000) : EReal :=
  (d (rowOf (nrmW (rowW e))) * 1) * d (rowOf (nrmW (colW e)))

/-- The aggregation of the second arrangement: every gathered row times its edge's factor. -/
def aggNorm {C : Nat} (d : Fin 100000 → EReal) (rowW colW : Fin 1700000 → BitVec 32)
    (T : Fin 100000 → Fin C → EReal) (j : Fin 100000) (f : Fin C) : EReal :=
  ∑ e : Fin 1700000, if (colW e).toInt = (j.val : Int)
    then T (rowOf (nrmW (rowW e))) f * edgeNorm d rowW colW e else 0

section Layers

variable (x : Fin 100000 → Fin 128 → EReal) (w1 : (⟨2, ![128, 128]⟩ : Shape).Idx → EReal) (b1 : Fin 128 → EReal)
  (w2 : (⟨2, ![128, 64]⟩ : Shape).Idx → EReal) (b2 : Fin 64 → EReal)
  (d : Fin 100000 → EReal) (rowW colW : Fin 1700000 → BitVec 32)

/-! ### First arrangement: scale, gather, aggregate, scale -/

/-- The first projection with each row scaled by its node's d. -/
def pre1 (n : Fin 100000) (f : Fin 128) : EReal := proj x w1 n f * d n

/-- The hidden layer: the aggregate scaled by d, the bias added, negative entries cut to 0. -/
def hid1 (n : Fin 100000) (f : Fin 128) : EReal := max (aggPre rowW colW (pre1 x w1 d) n f * d n + b1 f) 0

/-- The second projection, of the hidden layer, with each row scaled by its node's d. -/
def pre2 (n : Fin 100000) (g : Fin 64) : EReal := proj (hid1 x w1 b1 d rowW colW) w2 n g * d n

/-- The result of the first arrangement. -/
def outPre (n : Fin 100000) (g : Fin 64) : EReal :=
  aggPre rowW colW (pre2 x w1 b1 w2 d rowW colW) n g * d n + b2 g

/-! ### Second arrangement: gather, multiply by the edge's factor, aggregate -/

/-- The hidden layer of the second arrangement. -/
def hidN (n : Fin 100000) (f : Fin 128) : EReal := max (aggNorm d rowW colW (proj x w1) n f + b1 f) 0

/-- The result of the second arrangement. -/
def outNorm (n : Fin 100000) (g : Fin 64) : EReal :=
  aggNorm d rowW colW (proj (hidN x w1 b1 d rowW colW) w2) n g + b2 g

end Layers

end Cert.Spec

end
-- ==== Proof.LibGatherRows.lean ====
/-
  Two shape operations of a table of rows, read at an index.

  A table has N rows of C columns. Gathering its rows at R start indices (one per result row, stored as an
  R×1 array of words) gives an R×C array whose row e is the table's row at the e-th start index, the index
  read as a signed integer and clamped into [0, N − 1]. Scatter-adding R update rows onto the table at R
  start indices adds to every table entry the update entries of the same column whose row's start index,
  read as a signed integer and NOT clamped, is the entry's row; an update row whose index is outside
  [0, N) lands nowhere.
-/
import Idealize.ShloMosaic.PureOps.Ideal
import Idealize.ShloMosaic.Lib.ValueIdx

noncomputable section

open scoped BigOperators

namespace Cert.GatherRows

open Idealize.ShloMosaic Idealize.ShloMosaic.ValueIdx

variable {α : Type}

/-! ## Gathering rows -/

/-- The dimension numbers of a row gather: operand N×C, start indices R×1 (the index vector on axis 1),
    result R×C; the operand's row axis is collapsed and indexed, the column axis is the one offset axis,
    a slice is one whole row. -/
abbrev rowsDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- Entry (e, c) of a row gather is the table's entry in column c of the row named by the e-th start index,
    read signed and clamped into [0, N − 1]. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (c : Fin C) :
    Host.gather (rowsDims N R C wf) x idx (ix2 e c)
      = x (ix2 ⟨min (idx (ix2 e 0)).toInt.toNat (N - 1), by omega⟩ c) := by
  unfold Host.gather
  congr 1
  funext a
  refine Fin.ext ?_
  show (rowsDims N R C wf).start (ix2 e c) idx a + (rowsDims N R C wf).batchCoord (ix2 e c) a
      + (rowsDims N R C wf).offCoord (ix2 e c) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, _⟩ : Fin 2) ∈ (rowsDims N R C wf).startIndexMap from List.mem_singleton.mpr rfl)]
    have hsi : (rowsDims N R C wf).siIdx (ix2 e c) ⟨List.idxOf (⟨0, by decide⟩ : Fin 2) (rowsDims N R C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    have h01 : (1 : Fin 2) ∉ ([0] : List (Fin 2)) := by decide
    have hs : (rowsDims N R C wf).start (ix2 e c) idx (1 : Fin 2) = 0 := by
      unfold GatherDims.start; rw [dif_neg h01]
    have hk : (1 : Fin 2) ∈ (rowsDims N R C wf).sKept :=
      (GatherDims.mem_sKept _ _).mpr ⟨h01, List.not_mem_nil⟩
    have ho : (rowsDims N R C wf).offCoord (ix2 e c) (1 : Fin 2) = c.val := by
      unfold GatherDims.offCoord; rw [dif_pos hk]; rfl
    show (rowsDims N R C wf).start (ix2 e c) idx (1 : Fin 2) + 0 + (rowsDims N R C wf).offCoord (ix2 e c) (1 : Fin 2) = c.val
    rw [hs, ho]; omega

/-! ## Scatter-adding rows -/

/-- The dimension numbers of a row scatter: operand N×C, scatter indices R×1 (the index vector on axis 1),
    updates R×C; the operand's row axis is the inserted, indexed one, the column axis is the one window axis. -/
abbrev rowsScatterDims (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

section Scatter

variable {N R C w : Nat} (wf : ScatterDims.WF ⟨2, ![N, C]⟩ ⟨2, ![R, 1]⟩ ⟨2, ![R, C]⟩ [1] [0] [0] 1)
  (idx : IVec ⟨2, ![R, 1]⟩ w) (e : Fin R) (c' : Fin C)

/-- On the row axis an update entry starts at its row's index word, read signed. -/
theorem rows_start_row :
    (rowsScatterDims N R C wf).start (ix2 e c') idx (0 : Fin 2) = (idx (ix2 e 0)).toInt := by
  unfold ScatterDims.start
  rw [dif_pos (show (0 : Fin 2) ∈ (rowsScatterDims N R C wf).scatterDimsToOperandDims from List.mem_singleton.mpr rfl)]
  congr 2
  funext b; refine Fin.ext ?_
  match b with
  | ⟨0, _⟩ => rfl
  | ⟨1, _⟩ => rfl

/-- On the column axis it starts at 0. -/
theorem rows_start_col : (rowsScatterDims N R C wf).start (ix2 e c') idx (1 : Fin 2) = 0 := by
  have h01 : (1 : Fin 2) ∉ ([0] : List (Fin 2)) := by decide
  unfold ScatterDims.start; rw [dif_neg h01]

/-- The row axis carries no window coordinate. -/
theorem rows_window_row : (rowsScatterDims N R C wf).window (ix2 e c') (0 : Fin 2) = 0 := by
  have h : (0 : Fin 2) ∉ (rowsScatterDims N R C wf).sKept := by
    simp [ScatterDims.sKept, Shape.kept]
  unfold ScatterDims.window; rw [dif_neg h]

/-- The column axis's window coordinate is the update entry's column. -/
theorem rows_window_col : (rowsScatterDims N R C wf).window (ix2 e c') (1 : Fin 2) = c'.val := by
  have h : (1 : Fin 2) ∈ (rowsScatterDims N R C wf).sKept := by
    simp [ScatterDims.sKept, Shape.kept]
  unfold ScatterDims.window; rw [dif_pos h]; rfl

/-- Update entry (e, c') lands on table entry (n, c) exactly when its row's index word, read signed, is n and
    the columns agree. -/
theorem resultIdx_rows_iff (n : Fin N) (c : Fin C) :
    (rowsScatterDims N R C wf).resultIdx? (ix2 e c') idx = some (ix2 n c)
      ↔ (idx (ix2 e 0)).toInt = (n.val : Int) ∧ c' = c := by
  have hs0 := rows_start_row wf idx e c'
  have hs1 := rows_start_col wf idx e c'
  have hw0 := rows_window_row (N := N) (R := R) wf e c'
  have hw1 := rows_window_col (N := N) (R := R) wf e c'
  unfold ScatterDims.resultIdx?
  split
  · rename_i h
    rw [Option.some.injEq]
    constructor
    · intro hf
      have h0 := congrArg (fun f : (⟨2, ![N, C]⟩ : Shape).Idx => (f (0 : Fin 2)).val) hf
      have h1 := congrArg (fun f : (⟨2, ![N, C]⟩ : Shape).Idx => (f (1 : Fin 2)).val) hf
      have hp := (h (0 : Fin 2)).1
      simp only [hs0, hs1, hw0, hw1] at h0 h1 hp
      refine ⟨?_, Fin.ext ?_⟩
      · show _ = ((ix2 n c (0 : Fin 2)).val : Int)
        rw [← h0]; omega
      · show _ = (ix2 n c (1 : Fin 2)).val
        rw [← h1]; omega
    · rintro ⟨h0, rfl⟩
      funext a; refine Fin.ext ?_
      match a with
      | ⟨0, _⟩ =>
        show ((rowsScatterDims N R C wf).start (ix2 e c') idx (0 : Fin 2) + ((rowsScatterDims N R C wf).window (ix2 e c') (0 : Fin 2) : Int)).toNat = n.val
        rw [hs0, hw0, h0]; omega
      | ⟨1, _⟩ =>
        show ((rowsScatterDims N R C wf).start (ix2 e c') idx (1 : Fin 2) + ((rowsScatterDims N R C wf).window (ix2 e c') (1 : Fin 2) : Int)).toNat = c'.val
        rw [hs1, hw1]; omega
  · rename_i h
    refine iff_of_false (fun hh => nomatch hh) ?_
    rintro ⟨h0, -⟩
    refine h fun a => ?_
    match a with
    | ⟨0, _⟩ =>
      show 0 ≤ (rowsScatterDims N R C wf).start (ix2 e c') idx (0 : Fin 2) + ((rowsScatterDims N R C wf).window (ix2 e c') (0 : Fin 2) : Int) ∧
        (rowsScatterDims N R C wf).start (ix2 e c') idx (0 : Fin 2) + ((rowsScatterDims N R C wf).window (ix2 e c') (0 : Fin 2) : Int) < (N : Int)
      rw [hs0, hw0, h0]; have := n.isLt; omega
    | ⟨1, _⟩ =>
      show 0 ≤ (rowsScatterDims N R C wf).start (ix2 e c') idx (1 : Fin 2) + ((rowsScatterDims N R C wf).window (ix2 e c') (1 : Fin 2) : Int) ∧
        (rowsScatterDims N R C wf).start (ix2 e c') idx (1 : Fin 2) + ((rowsScatterDims N R C wf).window (ix2 e c') (1 : Fin 2) : Int) < (C : Int)
      rw [hs1, hw1]; have := c'.isLt; omega

end Scatter

/-- Entry (n, c) of a row scatter-add is the table's entry plus the sum, over the update rows whose index
    word read as a signed integer is n, of the update's entry in column c. The sum is written over all
    update rows with the others contributing 0. -/
theorem scatterAdd_rows_apply {N R C w : Nat}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w)
    (upd : (⟨2, ![R, C]⟩ : Shape).Idx → EReal) (n : Fin N) (c : Fin C) :
    Ideal.hostScatterAdd (rowsScatterDims N R C wf) x idx upd (ix2 n c)
      = x (ix2 n c) + ∑ e : Fin R, if (idx (ix2 e 0)).toInt = (n.val : Int) then upd (ix2 e c) else 0 := by
  unfold Ideal.hostScatterAdd
  congr 1
  rw [Finset.sum_filter, sum_idx2]
  refine Finset.sum_congr rfl fun e _ => ?_
  simp only [resultIdx_rows_iff]
  by_cases hP : (idx (ix2 e 0)).toInt = (n.val : Int)
  · simp only [hP, true_and, if_true]
    rw [Finset.sum_ite_eq' Finset.univ c (fun c' => upd (ix2 e c'))]
    simp
  · simp [hP]

end Cert.GatherRows

end
-- ==== Proof.LibScatterConcat.lean ====
/-
  Scatter-adding a concatenated list of rows onto a zero table, read as the sum of the two parts' scatter-adds.

  A table has N rows of C columns and starts at zero. Two lists of update rows, E₀ and E₁ long, each row with a
  destination index word, are laid one after the other (R = E₀ + E₁ rows, R index words) and scatter-added in one
  pass: table entry (n, c) ends at the sum of the update entries in column c of all rows whose index word, read
  signed, is n. Splitting the sum over the R rows at E₀ gives the first list's sum plus the second's, which is
  what adding the two lists' own scatter-adds onto zero tables gives. Only the associativity and commutativity
  of addition and 0 + a = a are used, so this holds on the extended reals with no finiteness assumption.
-/
import proofs.«170234_j65386582114681_2_alg».proof.Proof.LibGatherRows
import Idealize.ShloMosaic.Lib.Pipeline.Value

noncomputable section

open scoped BigOperators

namespace Cert.ScatterConcat

open Idealize.ShloMosaic Idealize.ShloMosaic.ValueIdx Cert.GatherRows

variable {α : Type}

/-- A vector of R words laid out as an R×1 column reads, at (j, 0), the vector at j. -/
theorem column_apply {R : Nat} (h : (⟨1, ![R]⟩ : Shape).BroadcastsInDim ⟨2, ![R, 1]⟩ (![0] : Fin 1 → Fin 2))
    (d : (⟨1, ![R]⟩ : Shape).Idx → α) (j : Fin R) :
    broadcastInDim ⟨2, ![R, 1]⟩ ![0] h d (ix2 j (0 : Fin 1)) = d (ix1 j) := by
  refine broadcastInDim_apply _ h d (ix2 j (0 : Fin 1)) (ix1 j) fun a => ?_
  match a with
  | ⟨0, _⟩ =>
    show j.val = if R = 1 then 0 else j.val
    split
    · have := j.isLt; omega
    · rfl

/-- Two vectors laid one after the other: a position in the first part reads the first vector. -/
theorem concat_vec_left {E₀ E₁ : Nat} (d₀ : (⟨1, ![E₀]⟩ : Shape).Idx → α) (d₁ : (⟨1, ![E₁]⟩ : Shape).Idx → α)
    (h : Shape.Concatenates [⟨1, ![E₀]⟩, ⟨1, ![E₁]⟩] ⟨1, ![E₀ + E₁]⟩ (0 : Fin 1)) (e : Fin E₀) :
    concatenate ⟨1, ![E₀ + E₁]⟩ (0 : Fin 1) [⟨⟨1, ![E₀]⟩, d₀⟩, ⟨⟨1, ![E₁]⟩, d₁⟩] h (ix1 (Fin.castAdd E₁ e)) = d₀ (ix1 e) :=
  concatenate_pair_apply_left (0 : Fin 1) d₀ d₁ h (ix1 (Fin.castAdd E₁ e)) rfl (ix1 e) fun b => by
    match b with
    | ⟨0, _⟩ => rfl

/-- A position in the second part reads the second vector, the first part's length less. -/
theorem concat_vec_right {E₀ E₁ : Nat} (d₀ : (⟨1, ![E₀]⟩ : Shape).Idx → α) (d₁ : (⟨1, ![E₁]⟩ : Shape).Idx → α)
    (h : Shape.Concatenates [⟨1, ![E₀]⟩, ⟨1, ![E₁]⟩] ⟨1, ![E₀ + E₁]⟩ (0 : Fin 1)) (e : Fin E₁) :
    concatenate ⟨1, ![E₀ + E₁]⟩ (0 : Fin 1) [⟨⟨1, ![E₀]⟩, d₀⟩, ⟨⟨1, ![E₁]⟩, d₁⟩] h (ix1 (Fin.natAdd E₀ e)) = d₁ (ix1 e) :=
  concatenate_pair_apply_right (0 : Fin 1) d₀ d₁ h (ix1 (Fin.natAdd E₀ e)) rfl rfl (ix1 e)
    (fun b hb => by
      match b with
      | ⟨0, _⟩ => exact absurd rfl hb)
    (by show e.val + E₀ = E₀ + e.val; omega)

/-- Two lists of rows laid one after the other: a row of the first part reads the first list. -/
theorem concat_rows_left {E₀ E₁ C : Nat} (M₀ : (⟨2, ![E₀, C]⟩ : Shape).Idx → α) (M₁ : (⟨2, ![E₁, C]⟩ : Shape).Idx → α)
    (h : Shape.Concatenates [⟨2, ![E₀, C]⟩, ⟨2, ![E₁, C]⟩] ⟨2, ![E₀ + E₁, C]⟩ (0 : Fin 2)) (e : Fin E₀) (c : Fin C) :
    concatenate ⟨2, ![E₀ + E₁, C]⟩ (0 : Fin 2) [⟨⟨2, ![E₀, C]⟩, M₀⟩, ⟨⟨2, ![E₁, C]⟩, M₁⟩] h (ix2 (Fin.castAdd E₁ e) c)
      = M₀ (ix2 e c) :=
  concatenate_pair_apply_left (0 : Fin 2) M₀ M₁ h (ix2 (Fin.castAdd E₁ e) c) rfl (ix2 e c) fun b => by
    match b with
    | ⟨0, _⟩ => rfl
    | ⟨1, _⟩ => rfl

/-- A row of the second part reads the second list, the first part's length less. -/
theorem concat_rows_right {E₀ E₁ C : Nat} (M₀ : (⟨2, ![E₀, C]⟩ : Shape).Idx → α) (M₁ : (⟨2, ![E₁, C]⟩ : Shape).Idx → α)
    (h : Shape.Concatenates [⟨2, ![E₀, C]⟩, ⟨2, ![E₁, C]⟩] ⟨2, ![E₀ + E₁, C]⟩ (0 : Fin 2)) (e : Fin E₁) (c : Fin C) :
    concatenate ⟨2, ![E₀ + E₁, C]⟩ (0 : Fin 2) [⟨⟨2, ![E₀, C]⟩, M₀⟩, ⟨⟨2, ![E₁, C]⟩, M₁⟩] h (ix2 (Fin.natAdd E₀ e) c)
      = M₁ (ix2 e c) :=
  concatenate_pair_apply_right (0 : Fin 2) M₀ M₁ h (ix2 (Fin.natAdd E₀ e) c) rfl rfl (ix2 e c)
    (fun b hb => by
      match b with
      | ⟨0, _⟩ => exact absurd rfl hb
      | ⟨1, _⟩ => rfl)
    (by show e.val + E₀ = E₀ + e.val; omega)

/-- One scatter-add of the concatenated rows at the concatenated index words onto a zero table is the zero table
    plus the first list's scatter-add onto a zero table, plus the second list's. The total number of rows R is a
    parameter with R = E₀ + E₁, so that the lemma applies where R is written as one numeral. -/
theorem scatterAdd_concat_zero {N E₀ E₁ R C : Nat} (hR : R = E₀ + E₁)
    (wf : ScatterDims.WF ⟨2, ![N, C]⟩ ⟨2, ![R, 1]⟩ ⟨2, ![R, C]⟩ [1] [0] [0] 1)
    (wf₀ : ScatterDims.WF ⟨2, ![N, C]⟩ ⟨2, ![E₀, 1]⟩ ⟨2, ![E₀, C]⟩ [1] [0] [0] 1)
    (wf₁ : ScatterDims.WF ⟨2, ![N, C]⟩ ⟨2, ![E₁, 1]⟩ ⟨2, ![E₁, C]⟩ [1] [0] [0] 1)
    (hM : Shape.Concatenates [⟨2, ![E₀, C]⟩, ⟨2, ![E₁, C]⟩] ⟨2, ![R, C]⟩ (0 : Fin 2))
    (hD : Shape.Concatenates [⟨1, ![E₀]⟩, ⟨1, ![E₁]⟩] ⟨1, ![R]⟩ (0 : Fin 1))
    (hb : (⟨1, ![R]⟩ : Shape).BroadcastsInDim ⟨2, ![R, 1]⟩ (![0] : Fin 1 → Fin 2))
    (hb₀ : (⟨1, ![E₀]⟩ : Shape).BroadcastsInDim ⟨2, ![E₀, 1]⟩ (![0] : Fin 1 → Fin 2))
    (hb₁ : (⟨1, ![E₁]⟩ : Shape).BroadcastsInDim ⟨2, ![E₁, 1]⟩ (![0] : Fin 1 → Fin 2))
    (Z : FVec Ideal ⟨2, ![N, C]⟩ .f32) (hZ : ∀ i, Z i = 0)
    (d₀ : IVec ⟨1, ![E₀]⟩ 32) (d₁ : IVec ⟨1, ![E₁]⟩ 32)
    (M₀ : FVec Ideal ⟨2, ![E₀, C]⟩ .f32) (M₁ : FVec Ideal ⟨2, ![E₁, C]⟩ .f32) :
    Host.scatterAdd (F := Ideal) (rowsScatterDims N R C wf) Z
        (broadcastInDim ⟨2, ![R, 1]⟩ ![0] hb
          (concatenate ⟨1, ![R]⟩ (0 : Fin 1) [⟨⟨1, ![E₀]⟩, d₀⟩, ⟨⟨1, ![E₁]⟩, d₁⟩] hD))
        (concatenate ⟨2, ![R, C]⟩ (0 : Fin 2) [⟨⟨2, ![E₀, C]⟩, M₀⟩, ⟨⟨2, ![E₁, C]⟩, M₁⟩] hM)
      = addf (addf Z (Host.scatterAdd (F := Ideal) (rowsScatterDims N E₀ C wf₀) Z (broadcastInDim ⟨2, ![E₀, 1]⟩ ![0] hb₀ d₀) M₀))
          (Host.scatterAdd (F := Ideal) (rowsScatterDims N E₁ C wf₁) Z (broadcastInDim ⟨2, ![E₁, 1]⟩ ![0] hb₁ d₁) M₁) := by
  subst hR
  funext i
  obtain ⟨n, c, rfl⟩ : ∃ (n : Fin N) (c : Fin C), i = ix2 n c := ⟨i 0, i 1, eq_ix2 i⟩
  show Ideal.hostScatterAdd (rowsScatterDims N (E₀ + E₁) C wf) Z
        (broadcastInDim ⟨2, ![E₀ + E₁, 1]⟩ ![0] hb
          (concatenate ⟨1, ![E₀ + E₁]⟩ (0 : Fin 1) [⟨⟨1, ![E₀]⟩, d₀⟩, ⟨⟨1, ![E₁]⟩, d₁⟩] hD))
        (concatenate ⟨2, ![E₀ + E₁, C]⟩ (0 : Fin 2) [⟨⟨2, ![E₀, C]⟩, M₀⟩, ⟨⟨2, ![E₁, C]⟩, M₁⟩] hM) (ix2 n c)
      = (Z (ix2 n c) + Ideal.hostScatterAdd (rowsScatterDims N E₀ C wf₀) Z (broadcastInDim ⟨2, ![E₀, 1]⟩ ![0] hb₀ d₀) M₀ (ix2 n c))
          + Ideal.hostScatterAdd (rowsScatterDims N E₁ C wf₁) Z (broadcastInDim ⟨2, ![E₁, 1]⟩ ![0] hb₁ d₁) M₁ (ix2 n c)
  rw [scatterAdd_rows_apply, scatterAdd_rows_apply, scatterAdd_rows_apply, hZ]
  simp only [zero_add]
  refine (Fin.sum_univ_add _).trans ?_
  congr 1
  · refine Finset.sum_congr rfl fun e _ => ?_
    rw [column_apply, column_apply, concat_vec_left, concat_rows_left]
  · refine Finset.sum_congr rfl fun e _ => ?_
    rw [column_apply, column_apply, concat_vec_right, concat_rows_right]

end Cert.ScatterConcat

end
-- ==== Proof.GatherScatter.lean ====
/-
  Gathering the rows of a node table at the normalised source words and scatter-adding them onto a zero table at
  the destination words, read at one entry.

  Entry (j, f) of the result is the sum, over the edges whose destination word read signed is j, of entry f of the
  table row named by the edge's source word after it is normalised (a negative word has 100000 added) and read
  signed and clamped into the table. The zero table contributes 0 + · and drops out.
-/
import proofs.«170234_j65386582114681_2_alg».proof.Proof.Spec
import proofs.«170234_j65386582114681_2_alg».proof.Proof.LibGatherRows
import proofs.«170234_j65386582114681_2_alg».proof.Proof.LibScatterConcat
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Spec

open Idealize.ShloMosaic Idealize.ShloMosaic.ValueIdx Cert.GatherRows

/-- A scalar laid over a whole shape reads the scalar everywhere. -/
theorem bcast_scalar_apply {α : Type} {t : Shape} (h : (⟨0, ![]⟩ : Shape).BroadcastsInDim t ![])
    (x : (⟨0, ![]⟩ : Shape).Idx → α) (j : t.Idx) :
    broadcastInDim t ![] h x j = x (fun a => a.elim0) :=
  broadcastInDim_apply _ h x j _ (fun a => a.elim0)

/-- A select on a Boolean's word is the `if` on the Boolean. -/
theorem select_ofBool {α : Type} (b : Bool) (x y : α) :
    Scalar.select (BitVec.ofBool b) x y = if b then x else y := by
  cases b <;> rfl

/-- The column of normalised index words reads, at (e, 0), the e-th word normalised. -/
theorem nrm_column_apply
    (hbc : (⟨1, ![1700000]⟩ : Shape).BroadcastsInDim ⟨2, ![1700000, 1]⟩ (![0] : Fin 1 → Fin 2))
    (hbs : (⟨0, ![]⟩ : Shape).BroadcastsInDim ⟨1, ![1700000]⟩ ![])
    (v : IVec ⟨1, ![1700000]⟩ 32) (e : Fin 1700000) :
    broadcastInDim ⟨2, ![1700000, 1]⟩ ![0] hbc
        (select (cmpi .slt v (broadcastInDim ⟨1, ![1700000]⟩ ![] hbs (constantI ⟨0, ![]⟩ 32 0#32)))
          (addi v (broadcastInDim ⟨1, ![1700000]⟩ ![] hbs (constantI ⟨0, ![]⟩ 32 100000#32))) v)
        (ix2 e (0 : Fin 1))
      = nrmW (v (ix1 e)) := by
  rw [Cert.ScatterConcat.column_apply, select_apply]
  show Scalar.select (BitVec.ofBool ((v (ix1 e)).slt 0#32)) (v (ix1 e) + 100000#32) (v (ix1 e)) = _
  rw [select_ofBool]
  rfl

/-- Rows of a table T gathered at index words idxG and scatter-added onto a zero table at index words idxS: entry
    (j, f) is the sum, over the edges whose scatter word read signed is j, of the gathered row's entry f. When the
    gather words are the normalised source words and the scatter words the destination words this is the first
    arrangement's aggregation. -/
theorem agg_pre_apply {C : Nat}
    (wfG : GatherDims.WF ⟨2, ![100000, C]⟩ ⟨2, ![1700000, 1]⟩ ⟨2, ![1700000, C]⟩ [1] [0] [] [0] [] 1 ![1, C])
    (wfS : ScatterDims.WF ⟨2, ![100000, C]⟩ ⟨2, ![1700000, 1]⟩ ⟨2, ![1700000, C]⟩ [1] [0] [0] 1)
    (Z : FVec Ideal ⟨2, ![100000, C]⟩ .f32) (hZ : ∀ i, Z i = 0)
    (T : FVec Ideal ⟨2, ![100000, C]⟩ .f32) (idxG idxS : IVec ⟨2, ![1700000, 1]⟩ 32)
    (rowW colW : Fin 1700000 → BitVec 32)
    (hG : ∀ e : Fin 1700000, idxG (ix2 e 0) = nrmW (rowW e))
    (hS : ∀ e : Fin 1700000, idxS (ix2 e 0) = colW e)
    (j : Fin 100000) (f : Fin C) :
    Host.scatterAdd (F := Ideal) (rowsScatterDims 100000 1700000 C wfS) Z idxS
        (Host.gather (rowsDims 100000 1700000 C wfG) T idxG) (ix2 j f)
      = aggPre rowW colW (fun n c => T (ix2 n c)) j f := by
  show Ideal.hostScatterAdd (rowsScatterDims 100000 1700000 C wfS) Z idxS
        (Host.gather (rowsDims 100000 1700000 C wfG) T idxG) (ix2 j f) = _
  rw [scatterAdd_rows_apply, hZ, zero_add]
  unfold aggPre
  refine Finset.sum_congr rfl fun e _ => ?_
  have hrow : Host.gather (rowsDims 100000 1700000 C wfG) T idxG (ix2 e f)
      = T (ix2 (rowOf (idxG (ix2 e 0))) f) := gather_rows_apply (by decide) wfG T idxG e f
  rw [hS, hrow, hG]

/-- The zero table: a zero word laid over the whole table reads 0 everywhere. -/
theorem zero_table_apply {t : Shape} (h : (⟨0, ![]⟩ : Shape).BroadcastsInDim t ![]) (i : t.Idx) :
    broadcastInDim t ![] h (constant (F := Ideal) ⟨0, ![]⟩ .f32 0x00000000#32) i = 0 := by
  rw [bcast_scalar_apply, constant_apply, Ideal.ofBits_zero_f32]

end Cert.Spec

end
-- ==== Proof.LibKeepdims.lean ====
/-
  A vector kept as a column, and a column laid along every column of a matrix, read at an index.

  A row reduction that keeps its axis (a row's maximum or sum, then subtracted from or divided into every entry of the
  row) is printed as a shape cast of the reduced vector [a] to a column [a, 1] followed by a broadcast of that column to
  [a, b]. At (p, c) the broadcast reads the column at (p, 0), which reads the vector at p.
-/
import Idealize.ShloMosaic.Lib.Pipeline.Value
import Idealize.ShloMosaic.Lib.ValueIdx

namespace Idealize.ShloMosaic.Keepdims

open Idealize.ShloMosaic.ValueIdx

variable {α : Type}

/-- A vector `[a]` cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    omega)

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector laid along every column of a matrix reads, at `(p, c)`, the vector at `p`. -/
theorem column_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

end Idealize.ShloMosaic.Keepdims
-- ==== Proof.HostFold.lean ====
/-
  The fold of the idealized kernel's segments, read one boundary at a time.

  Between the launch and the return the program's buffers pass eight boundaries: after each of the three host
  stretches that compute the index words and the node scale, after the first pipeline, after the host stretch that
  gathers and aggregates its result, after the second pipeline, after the second gather and aggregate, and after the
  third pipeline. A buffer that a stretch or a pipeline does not write keeps its contents across it; a buffer a host
  stretch writes holds its operation's value of the operands' contents; a pipeline's output array holds what its
  write-backs leave. Each lemma below is one such step for one buffer the value proof needs, and the chains after
  them carry the index words, the scale column and the arguments to the boundaries where they are read.
-/
import proofs.«170234_j65386582114681_2_alg».proof.Proof.Gen.KernelIdeal.Frame
import Idealize.ShloMosaic.PureOps.Ideal.Laws
import Idealize.ShloMosaic.Lib.StableHlo.Run
import Idealize.ShloMosaic.Lib.Pipeline.Value
import Idealize.ShloMosaic.Lib.ValueIdx
import proofs.«170234_j65386582114681_2_alg».proof.Proof.Spec
import proofs.«170234_j65386582114681_2_alg».proof.Proof.GatherScatter
import proofs.«170234_j65386582114681_2_alg».proof.Proof.LibKeepdims
import proofs.«170234_j65386582114681_2_alg».proof.Proof.LibScatterConcat

set_option maxRecDepth 16384

noncomputable section

namespace Cert.KernelValue

open Cert.KernelIdeal Cert.KernelIdeal.Gen
open Idealize.ShloMosaic Idealize.ShloMosaic.TcCoe Idealize.ShloMosaic.Tactic Idealize.ShloMosaic.StableHlo
open Idealize.SL.Sem Idealize.ShloMosaic.ValueIdx

variable (m : (ℓ : Loc nD τ sig) → Buf (Elt Ideal) ℓ) (ρ : Dev nD → PrngReg) (c : Dev nD)

/-! ## Buffers a host stretch leaves alone -/

theorem keep7_v17 : W7 (F := Ideal) m ρ c (Proc.devRef .tc main_v17) = W6 m ρ c (Proc.devRef .tc main_v17) := by
  show StableHlo.after hostOps2 (W6 m ρ c) (Proc.devRef .tc main_v17) = _
  generalize W6 m ρ c = V
  after_results

theorem keep5_v17 : W5 (F := Ideal) m ρ c (Proc.devRef .tc main_v17) = W4 m ρ c (Proc.devRef .tc main_v17) := by
  show StableHlo.after hostOps1 (W4 m ρ c) (Proc.devRef .tc main_v17) = _
  generalize W4 m ρ c = V
  after_results

theorem keep5_v5 : W5 (F := Ideal) m ρ c (Proc.devRef .tc main_v5) = W4 m ρ c (Proc.devRef .tc main_v5) := by
  show StableHlo.after hostOps1 (W4 m ρ c) (Proc.devRef .tc main_v5) = _
  generalize W4 m ρ c = V
  after_results

theorem keep5_v6 : W5 (F := Ideal) m ρ c (Proc.devRef .tc main_v6) = W4 m ρ c (Proc.devRef .tc main_v6) := by
  show StableHlo.after hostOps1 (W4 m ρ c) (Proc.devRef .tc main_v6) = _
  generalize W4 m ρ c = V
  after_results

theorem keep5_arg4 : W5 (F := Ideal) m ρ c (Proc.devRef .tc main_arg4) = W4 m ρ c (Proc.devRef .tc main_arg4) := by
  show StableHlo.after hostOps1 (W4 m ρ c) (Proc.devRef .tc main_arg4) = _
  generalize W4 m ρ c = V
  after_results

theorem keep5_arg5 : W5 (F := Ideal) m ρ c (Proc.devRef .tc main_arg5) = W4 m ρ c (Proc.devRef .tc main_arg5) := by
  show StableHlo.after hostOps1 (W4 m ρ c) (Proc.devRef .tc main_arg5) = _
  generalize W4 m ρ c = V
  after_results

theorem keep3_v5 : W3 (F := Ideal) m ρ c (Proc.devRef .tc main_v5) = W2 m ρ c (Proc.devRef .tc main_v5) := by
  show StableHlo.after hostOps0_2 (W2 m ρ c) (Proc.devRef .tc main_v5) = _
  generalize W2 m ρ c = V
  after_results

theorem keep3_v6 : W3 (F := Ideal) m ρ c (Proc.devRef .tc main_v6) = W2 m ρ c (Proc.devRef .tc main_v6) := by
  show StableHlo.after hostOps0_2 (W2 m ρ c) (Proc.devRef .tc main_v6) = _
  generalize W2 m ρ c = V
  after_results

theorem keep3_arg0 : W3 (F := Ideal) m ρ c (Proc.devRef .tc main_arg0) = W2 m ρ c (Proc.devRef .tc main_arg0) := by
  show StableHlo.after hostOps0_2 (W2 m ρ c) (Proc.devRef .tc main_arg0) = _
  generalize W2 m ρ c = V
  after_results

theorem keep3_arg2 : W3 (F := Ideal) m ρ c (Proc.devRef .tc main_arg2) = W2 m ρ c (Proc.devRef .tc main_arg2) := by
  show StableHlo.after hostOps0_2 (W2 m ρ c) (Proc.devRef .tc main_arg2) = _
  generalize W2 m ρ c = V
  after_results

theorem keep3_arg3 : W3 (F := Ideal) m ρ c (Proc.devRef .tc main_arg3) = W2 m ρ c (Proc.devRef .tc main_arg3) := by
  show StableHlo.after hostOps0_2 (W2 m ρ c) (Proc.devRef .tc main_arg3) = _
  generalize W2 m ρ c = V
  after_results

theorem keep3_arg4 : W3 (F := Ideal) m ρ c (Proc.devRef .tc main_arg4) = W2 m ρ c (Proc.devRef .tc main_arg4) := by
  show StableHlo.after hostOps0_2 (W2 m ρ c) (Proc.devRef .tc main_arg4) = _
  generalize W2 m ρ c = V
  after_results

theorem keep3_arg5 : W3 (F := Ideal) m ρ c (Proc.devRef .tc main_arg5) = W2 m ρ c (Proc.devRef .tc main_arg5) := by
  show StableHlo.after hostOps0_2 (W2 m ρ c) (Proc.devRef .tc main_arg5) = _
  generalize W2 m ρ c = V
  after_results

theorem keep2_v5 : W2 (F := Ideal) m ρ c (Proc.devRef .tc main_v5) = W1 m ρ c (Proc.devRef .tc main_v5) := by
  show StableHlo.after hostOps0_1 (W1 m ρ c) (Proc.devRef .tc main_v5) = _
  generalize W1 m ρ c = V
  after_results_simp

theorem keep2_v6 : W2 (F := Ideal) m ρ c (Proc.devRef .tc main_v6) = W1 m ρ c (Proc.devRef .tc main_v6) := by
  show StableHlo.after hostOps0_1 (W1 m ρ c) (Proc.devRef .tc main_v6) = _
  generalize W1 m ρ c = V
  after_results_simp

theorem keep2_arg0 : W2 (F := Ideal) m ρ c (Proc.devRef .tc main_arg0) = W1 m ρ c (Proc.devRef .tc main_arg0) := by
  show StableHlo.after hostOps0_1 (W1 m ρ c) (Proc.devRef .tc main_arg0) = _
  generalize W1 m ρ c = V
  after_results_simp

theorem keep2_arg2 : W2 (F := Ideal) m ρ c (Proc.devRef .tc main_arg2) = W1 m ρ c (Proc.devRef .tc main_arg2) := by
  show StableHlo.after hostOps0_1 (W1 m ρ c) (Proc.devRef .tc main_arg2) = _
  generalize W1 m ρ c = V
  after_results_simp

theorem keep2_arg3 : W2 (F := Ideal) m ρ c (Proc.devRef .tc main_arg3) = W1 m ρ c (Proc.devRef .tc main_arg3) := by
  show StableHlo.after hostOps0_1 (W1 m ρ c) (Proc.devRef .tc main_arg3) = _
  generalize W1 m ρ c = V
  after_results_simp

theorem keep2_arg4 : W2 (F := Ideal) m ρ c (Proc.devRef .tc main_arg4) = W1 m ρ c (Proc.devRef .tc main_arg4) := by
  show StableHlo.after hostOps0_1 (W1 m ρ c) (Proc.devRef .tc main_arg4) = _
  generalize W1 m ρ c = V
  after_results_simp

theorem keep2_arg5 : W2 (F := Ideal) m ρ c (Proc.devRef .tc main_arg5) = W1 m ρ c (Proc.devRef .tc main_arg5) := by
  show StableHlo.after hostOps0_1 (W1 m ρ c) (Proc.devRef .tc main_arg5) = _
  generalize W1 m ρ c = V
  after_results_simp

theorem keep1_arg0 : W1 (F := Ideal) m ρ c (Proc.devRef .tc main_arg0) = W0 m ρ c (Proc.devRef .tc main_arg0) := by
  show StableHlo.after hostOps0 (W0 m ρ c) (Proc.devRef .tc main_arg0) = _
  generalize W0 m ρ c = V
  after_results

theorem keep1_arg2 : W1 (F := Ideal) m ρ c (Proc.devRef .tc main_arg2) = W0 m ρ c (Proc.devRef .tc main_arg2) := by
  show StableHlo.after hostOps0 (W0 m ρ c) (Proc.devRef .tc main_arg2) = _
  generalize W0 m ρ c = V
  after_results

theorem keep1_arg3 : W1 (F := Ideal) m ρ c (Proc.devRef .tc main_arg3) = W0 m ρ c (Proc.devRef .tc main_arg3) := by
  show StableHlo.after hostOps0 (W0 m ρ c) (Proc.devRef .tc main_arg3) = _
  generalize W0 m ρ c = V
  after_results

theorem keep1_arg4 : W1 (F := Ideal) m ρ c (Proc.devRef .tc main_arg4) = W0 m ρ c (Proc.devRef .tc main_arg4) := by
  show StableHlo.after hostOps0 (W0 m ρ c) (Proc.devRef .tc main_arg4) = _
  generalize W0 m ρ c = V
  after_results

theorem keep1_arg5 : W1 (F := Ideal) m ρ c (Proc.devRef .tc main_arg5) = W0 m ρ c (Proc.devRef .tc main_arg5) := by
  show StableHlo.after hostOps0 (W0 m ρ c) (Proc.devRef .tc main_arg5) = _
  generalize W0 m ρ c = V
  after_results

/-! ## Buffers a pipeline leaves alone, and its input arrays -/

theorem keep6_v5 : W6 (F := Ideal) m ρ c (Proc.devRef .tc main_v5) = W5 m ρ c (Proc.devRef .tc main_v5) :=
  W6_of_ne m ρ c main_v5 (by decide)

theorem keep6_v6 : W6 (F := Ideal) m ρ c (Proc.devRef .tc main_v6) = W5 m ρ c (Proc.devRef .tc main_v6) :=
  W6_of_ne m ρ c main_v6 (by decide)

theorem keep6_arg5 : W6 (F := Ideal) m ρ c (Proc.devRef .tc main_arg5) = W5 m ρ c (Proc.devRef .tc main_arg5) :=
  W6_of_ne m ρ c main_arg5 (by decide)

theorem keep4_v5 : W4 (F := Ideal) m ρ c (Proc.devRef .tc main_v5) = W3 m ρ c (Proc.devRef .tc main_v5) :=
  W4_of_ne m ρ c main_v5 (by decide)

theorem keep4_v6 : W4 (F := Ideal) m ρ c (Proc.devRef .tc main_v6) = W3 m ρ c (Proc.devRef .tc main_v6) :=
  W4_of_ne m ρ c main_v6 (by decide)

theorem keep4_arg3 : W4 (F := Ideal) m ρ c (Proc.devRef .tc main_arg3) = W3 m ρ c (Proc.devRef .tc main_arg3) :=
  W4_of_ne m ρ c main_arg3 (by decide)

theorem keep4_arg4 : W4 (F := Ideal) m ρ c (Proc.devRef .tc main_arg4) = W3 m ρ c (Proc.devRef .tc main_arg4) :=
  W4_of_ne m ρ c main_arg4 (by decide)

theorem keep4_arg5 : W4 (F := Ideal) m ρ c (Proc.devRef .tc main_arg5) = W3 m ρ c (Proc.devRef .tc main_arg5) :=
  W4_of_ne m ρ c main_arg5 (by decide)

/-- The scale column is an input array of the second pipeline: it ends as it was entered. -/
theorem keep6_v17 : W6 (F := Ideal) m ρ c (Proc.devRef .tc main_v17) = W5 m ρ c (Proc.devRef .tc main_v17) :=
  (W6_arr m ρ c 1).trans (((dat1 (V5 m ρ) c).arrAt_in 1 rfl _).trans (A_eq1 (V5 m ρ) c 1))

/-- … and of the first. -/
theorem keep4_v17 : W4 (F := Ideal) m ρ c (Proc.devRef .tc main_v17) = W3 m ρ c (Proc.devRef .tc main_v17) :=
  (W4_arr m ρ c 2).trans (((dat0 (V3 m ρ) c).arrAt_in 2 rfl _).trans (A_eq0 (V3 m ρ) c 2))

/-! ## Buffers a host stretch writes, read at an entry -/

/-- The kernel's source words, destination words and node scale, as the first stretches leave them. -/
abbrev rowK : Fin 1700000 → BitVec 32 := fun e => (W1 (F := Ideal) m ρ c (Proc.devRef .tc main_v5) : S1700000.Idx → BitVec 32) (ix1 e)
abbrev colK : Fin 1700000 → BitVec 32 := fun e => (W1 (F := Ideal) m ρ c (Proc.devRef .tc main_v6) : S1700000.Idx → BitVec 32) (ix1 e)
abbrev disK : Fin 100000 → EReal := fun n => (W2 (F := Ideal) m ρ c (Proc.devRef .tc main_v16) : S100000.Idx → EReal) (ix1 n)

/-- The scale column at (n, 0) is the scale vector at n. -/
theorem d3_at (n : Fin 100000) :
    (W3 (F := Ideal) m ρ c (Proc.devRef .tc main_v17) : S100000x1.Idx → EReal) (ix2 n (0 : Fin 1)) = disK m ρ c n := by
  show StableHlo.after hostOps0_2 (W2 m ρ c) (Proc.devRef .tc main_v17) (ix2 n (0 : Fin 1)) = _
  unfold disK
  generalize W2 m ρ c = V
  after_results
  exact Idealize.ShloMosaic.Keepdims.shapeCast_a_a1_apply (V (Proc.devRef .tc main_v16)) shapeCasts_S100000_S100000x1 n 0

/-- The first bias as a 1×128 row reads the bias vector. -/
theorem b1_at (f : Fin 128) :
    (W5 (F := Ideal) m ρ c (Proc.devRef .tc main_v29) : S1x128.Idx → EReal) (ix2 (0 : Fin 1) f)
      = (W4 (F := Ideal) m ρ c (Proc.devRef .tc main_arg3) : S128.Idx → EReal) (ix1 f) := by
  show StableHlo.after hostOps1 (W4 m ρ c) (Proc.devRef .tc main_v29) (ix2 (0 : Fin 1) f) = _
  generalize W4 m ρ c = V
  after_results
  exact shapeCast_apply (V (Proc.devRef .tc main_arg3)) shapeCasts_S128_S1x128 (ix2 (0 : Fin 1) f) (ix1 f) (by
    show (S128.rowMajor (ix1 f)).val = (S1x128.rowMajor (ix2 (0 : Fin 1) f)).val
    rw [Shape.rowMajor_val_one, Shape.rowMajor_val_two]
    show f.val = 0 * 128 + f.val
    omega)

/-- The second bias as a 1×64 row reads the bias vector. -/
theorem b2_at (g : Fin 64) :
    (W7 (F := Ideal) m ρ c (Proc.devRef .tc main_v41) : S1x64.Idx → EReal) (ix2 (0 : Fin 1) g)
      = (W6 (F := Ideal) m ρ c (Proc.devRef .tc main_arg5) : S64.Idx → EReal) (ix1 g) := by
  show StableHlo.after hostOps2 (W6 m ρ c) (Proc.devRef .tc main_v41) (ix2 (0 : Fin 1) g) = _
  generalize W6 m ρ c = V
  after_results
  exact shapeCast_apply (V (Proc.devRef .tc main_arg5)) shapeCasts_S64_S1x64 (ix2 (0 : Fin 1) g) (ix1 g) (by
    show (S64.rowMajor (ix1 g)).val = (S1x64.rowMajor (ix2 (0 : Fin 1) g)).val
    rw [Shape.rowMajor_val_one, Shape.rowMajor_val_two]
    show g.val = 0 * 64 + g.val
    omega)

/-- The first aggregate: the first pipeline's rows gathered at the normalised source words and added up at the
    destination words. -/
theorem agg5_at (j : Fin 100000) (f : Fin 128) :
    (W5 (F := Ideal) m ρ c (Proc.devRef .tc main_v28) : S100000x128.Idx → EReal) (ix2 j f)
      = Spec.aggPre (fun e => (W4 (F := Ideal) m ρ c (Proc.devRef .tc main_v5) : S1700000.Idx → BitVec 32) (ix1 e))
          (fun e => (W4 (F := Ideal) m ρ c (Proc.devRef .tc main_v6) : S1700000.Idx → BitVec 32) (ix1 e))
          (fun n f => (W4 (F := Ideal) m ρ c (Proc.devRef .tc main_v18) : S100000x128.Idx → EReal) (ix2 n f)) j f := by
  show StableHlo.after hostOps1 (W4 m ρ c) (Proc.devRef .tc main_v28) (ix2 j f) = _
  generalize W4 m ρ c = V
  after_results
  exact Spec.agg_pre_apply _ _ _ (fun i => Spec.zero_table_apply _ i) (V (Proc.devRef .tc main_v18)) _ _ _ _
    (fun e => Spec.nrm_column_apply _ _ (V (Proc.devRef .tc main_v5)) e)
    (fun e => Cert.ScatterConcat.column_apply _ (V (Proc.devRef .tc main_v6)) e) j f

/-- The second aggregate, of the second pipeline's rows. -/
theorem agg7_at (j : Fin 100000) (g : Fin 64) :
    (W7 (F := Ideal) m ρ c (Proc.devRef .tc main_v40) : S100000x64.Idx → EReal) (ix2 j g)
      = Spec.aggPre (fun e => (W6 (F := Ideal) m ρ c (Proc.devRef .tc main_v5) : S1700000.Idx → BitVec 32) (ix1 e))
          (fun e => (W6 (F := Ideal) m ρ c (Proc.devRef .tc main_v6) : S1700000.Idx → BitVec 32) (ix1 e))
          (fun n g => (W6 (F := Ideal) m ρ c (Proc.devRef .tc main_v30) : S100000x64.Idx → EReal) (ix2 n g)) j g := by
  show StableHlo.after hostOps2 (W6 m ρ c) (Proc.devRef .tc main_v40) (ix2 j g) = _
  generalize W6 m ρ c = V
  after_results
  exact Spec.agg_pre_apply _ _ _ (fun i => Spec.zero_table_apply _ i) (V (Proc.devRef .tc main_v30)) _ _ _ _
    (fun e => Spec.nrm_column_apply _ _ (V (Proc.devRef .tc main_v5)) e)
    (fun e => Cert.ScatterConcat.column_apply _ (V (Proc.devRef .tc main_v6)) e) j g

/-! ## The chains -/

theorem v5_at4 : W4 (F := Ideal) m ρ c (Proc.devRef .tc main_v5) = W1 m ρ c (Proc.devRef .tc main_v5) :=
  (keep4_v5 m ρ c).trans ((keep3_v5 m ρ c).trans (keep2_v5 m ρ c))
theorem v6_at4 : W4 (F := Ideal) m ρ c (Proc.devRef .tc main_v6) = W1 m ρ c (Proc.devRef .tc main_v6) :=
  (keep4_v6 m ρ c).trans ((keep3_v6 m ρ c).trans (keep2_v6 m ρ c))
theorem v5_at6 : W6 (F := Ideal) m ρ c (Proc.devRef .tc main_v5) = W1 m ρ c (Proc.devRef .tc main_v5) :=
  (keep6_v5 m ρ c).trans ((keep5_v5 m ρ c).trans (v5_at4 m ρ c))
theorem v6_at6 : W6 (F := Ideal) m ρ c (Proc.devRef .tc main_v6) = W1 m ρ c (Proc.devRef .tc main_v6) :=
  (keep6_v6 m ρ c).trans ((keep5_v6 m ρ c).trans (v6_at4 m ρ c))
theorem v17_at5 : W5 (F := Ideal) m ρ c (Proc.devRef .tc main_v17) = W3 m ρ c (Proc.devRef .tc main_v17) :=
  (keep5_v17 m ρ c).trans (keep4_v17 m ρ c)
theorem v17_at7 : W7 (F := Ideal) m ρ c (Proc.devRef .tc main_v17) = W3 m ρ c (Proc.devRef .tc main_v17) :=
  (keep7_v17 m ρ c).trans ((keep6_v17 m ρ c).trans (v17_at5 m ρ c))
theorem arg0_at3 : W3 (F := Ideal) m ρ c (Proc.devRef .tc main_arg0) = m ((c : Thread nD τ).loc main_arg0) :=
  (keep3_arg0 m ρ c).trans ((keep2_arg0 m ρ c).trans (keep1_arg0 m ρ c))
theorem arg2_at3 : W3 (F := Ideal) m ρ c (Proc.devRef .tc main_arg2) = m ((c : Thread nD τ).loc main_arg2) :=
  (keep3_arg2 m ρ c).trans ((keep2_arg2 m ρ c).trans (keep1_arg2 m ρ c))
theorem arg3_at4 : W4 (F := Ideal) m ρ c (Proc.devRef .tc main_arg3) = m ((c : Thread nD τ).loc main_arg3) :=
  (keep4_arg3 m ρ c).trans ((keep3_arg3 m ρ c).trans ((keep2_arg3 m ρ c).trans (keep1_arg3 m ρ c)))
theorem arg4_at5 : W5 (F := Ideal) m ρ c (Proc.devRef .tc main_arg4) = m ((c : Thread nD τ).loc main_arg4) :=
  (keep5_arg4 m ρ c).trans ((keep4_arg4 m ρ c).trans ((keep3_arg4 m ρ c).trans ((keep2_arg4 m ρ c).trans (keep1_arg4 m ρ c))))
theorem arg5_at6 : W6 (F := Ideal) m ρ c (Proc.devRef .tc main_arg5) = m ((c : Thread nD τ).loc main_arg5) :=
  (keep6_arg5 m ρ c).trans ((keep5_arg5 m ρ c).trans ((keep4_arg5 m ρ c).trans ((keep3_arg5 m ρ c).trans
    ((keep2_arg5 m ρ c).trans (keep1_arg5 m ρ c)))))

end Cert.KernelValue

end
-- ==== Proof.Region0.lean ====
/-
  The first grid region as one function of the arrays it is entered with: the 100000 by 128 feature table, the
  128 by 128 weights and the column of 100000 row factors go to the table whose entry (n, f) is row n of the
  features times column f of the weights, a sum over the 128 inner positions, multiplied by the factor of row n.
  The grid's 50 points each write 2000 consecutive rows; together the row blocks cover the table.
-/
import proofs.«170234_j65386582114681_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«170234_j65386582114681_2_alg».proof.Proof.Spec
import proofs.«170234_j65386582114681_2_alg».proof.Proof.LibKeepdims

set_option maxRecDepth 16384

noncomputable section

namespace Cert.KernelValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zeros0 : (![0, 0] : Fin 2 → Nat) = fun _ => 0 := funext fun a => by fin_cases a <;> rfl

local notation "D0" => dot_S2000x128_S128x128_S2000x128_1_0_0_1_n_n

/-- The product's left operand is read at the result's row and the contraction position, -/
theorem lhs0_row (i : S2000x128.Idx) (q : DotDims.contr D0 |>.Idx) : (DotDims.lhsIdx D0 i q 0).val = (i 0).val := by
  unfold DotDims.lhsIdx
  rw [dif_neg (show ¬(0 : Fin S2000x128.rank) ∈ DotDims.lhsBatch D0 by decide),
    dif_pos (show (0 : Fin S2000x128.rank) ∈ DotDims.lhsNonContracting D0 by decide)]
  rfl
theorem lhs0_col (i : S2000x128.Idx) (q : DotDims.contr D0 |>.Idx) : (DotDims.lhsIdx D0 i q 1).val = (q ⟨0, by decide⟩).val :=
  DotDims.lhsIdx_val_of_single D0 rfl i q
/-- the right operand at the contraction position and the result's column. -/
theorem rhs0_row (i : S2000x128.Idx) (q : DotDims.contr D0 |>.Idx) : (DotDims.rhsIdx D0 i q 0).val = (q ⟨0, by decide⟩).val :=
  DotDims.rhsIdx_val_of_single D0 rfl i q
theorem rhs0_col (i : S2000x128.Idx) (q : DotDims.contr D0 |>.Idx) : (DotDims.rhsIdx D0 i q 1).val = (i 1).val := by
  unfold DotDims.rhsIdx
  rw [dif_neg (show ¬(1 : Fin S128x128.rank) ∈ DotDims.rhsBatch D0 by decide),
    dif_pos (show (1 : Fin S128x128.rank) ∈ DotDims.rhsNonContracting D0 by decide)]
  rfl

/-- The body at an index: row p of the block times column q of the weights, scaled by the row's factor. -/
theorem pay0_apply (x0 : Vec Ideal S2000x128 .f32) (x1 : Vec Ideal S128x128 .f32) (x2 : Vec Ideal S2000x1 .f32)
    (p : Fin 2000) (q : Fin 128) :
    k0_pay1 x0 x1 x2 (ix2 p q) = (∑ k : Fin 128, x0 (ix2 p k) * x1 (ix2 k q)) * x2 (ix2 p (0 : Fin 1)) := by
  unfold k0_pay1
  rw [mulf_apply, shapeCast_self, Keepdims.broadcastTo_a1_ab_apply]
  congr 1
  simp only [matmul]
  rw [Ideal.matmul_constant_zero_apply, ← Equiv.sum_comp (contrEquiv1 D0 128 rfl rfl).symm]
  refine Finset.sum_congr rfl fun k _ => ?_
  have hk := contrEquiv1_symm_val D0 128 rfl rfl k
  have el : DotDims.lhsIdx D0 (ix2 p q) ((contrEquiv1 D0 128 rfl rfl).symm k) = ix2 p k := funext fun a => Fin.ext (by
    match a with
    | ⟨0, _⟩ => exact lhs0_row _ _
    | ⟨1, _⟩ => exact (lhs0_col _ _).trans hk)
  have er : DotDims.rhsIdx D0 (ix2 p q) ((contrEquiv1 D0 128 rfl rfl).symm k) = ix2 k q := funext fun a => Fin.ext (by
    match a with
    | ⟨0, _⟩ => exact (rhs0_row _ _).trans hk
    | ⟨1, _⟩ => exact rhs0_col _ _)
  rw [el, er, truncf_apply, truncf_apply]

/-- Entry (n, f) of the result: row n of the features projected by the weights, scaled by the node's factor. -/
def prescale (X : S100000x128.Idx → EReal) (W : S128x128.Idx → EReal) (D : S100000x1.Idx → EReal)
    (n : Fin 100000) (f : Fin 128) : EReal :=
  Spec.proj (fun n k => X (ix2 n k)) W n f * D (ix2 n (0 : Fin 1))

/-- The whole result array. -/
def G0 (X : S100000x128.Idx → EReal) (W : S128x128.Idx → EReal) (D : S100000x1.Idx → EReal) : S100000x128.Idx → EReal :=
  fun i => prescale X W D (i 0) (i 1)

/-- The block indices at each grid point: the row-blocked windows sit at block row t, the weights at block (0, 0). -/
theorem index0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Block t of the features: rows 2000·t … 2000·t + 1999. -/
theorem blk0_0_apply (c : Dev nD) (t : Fin cfg0.N) (x : S2000x128.Idx) (k : S100000x128.Idx)
    (hk0 : (k 0).val = 2000 * t.val + (x 0).val) (hk1 : (k 1).val = (x 1).val) :
    (iblk0 V c 0 t : Vec Ideal S2000x128 .f32) x = (V c main_arg0 : S100000x128.Idx → EReal) k := by
  obtain ⟨e0, e1, -⟩ := index0 t
  unfold iblk0
  rw [View.read_apply]
  show V c main_arg0 _ = V c main_arg0 _
  congr 1
  funext a
  apply Fin.ext
  match a with
  | ⟨0, _⟩ => show win0_0.index t 0 * 2000 + 1 * (x 0).val = (k 0).val; rw [e0, hk0]; omega
  | ⟨1, _⟩ => show win0_0.index t 1 * 128 + 1 * (x 1).val = (k 1).val; rw [e1, hk1]; omega

/-- The weights' block is the whole matrix at every point. -/
theorem blk0_1_apply (c : Dev nD) (t : Fin cfg0.N) (x : S128x128.Idx) (k : S128x128.Idx)
    (hk0 : (k 0).val = (x 0).val) (hk1 : (k 1).val = (x 1).val) :
    (iblk0 V c 1 t : Vec Ideal S128x128 .f32) x = (V c main_arg2 : S128x128.Idx → EReal) k := by
  obtain ⟨-, -, e0, e1, -⟩ := index0 t
  unfold iblk0
  rw [View.read_apply]
  show V c main_arg2 _ = V c main_arg2 _
  congr 1
  funext a
  apply Fin.ext
  match a with
  | ⟨0, _⟩ => show win0_1.index t 0 * 128 + 1 * (x 0).val = (k 0).val; rw [e0, hk0]; omega
  | ⟨1, _⟩ => show win0_1.index t 1 * 128 + 1 * (x 1).val = (k 1).val; rw [e1, hk1]; omega

/-- Block t of the scale column: rows 2000·t … 2000·t + 1999. -/
theorem blk0_2_apply (c : Dev nD) (t : Fin cfg0.N) (x : S2000x1.Idx) (k : S100000x1.Idx)
    (hk0 : (k 0).val = 2000 * t.val + (x 0).val) (hk1 : (k 1).val = (x 1).val) :
    (iblk0 V c 2 t : Vec Ideal S2000x1 .f32) x = (V c main_v17 : S100000x1.Idx → EReal) k := by
  obtain ⟨-, -, -, -, e0, e1, -⟩ := index0 t
  unfold iblk0
  rw [View.read_apply]
  show V c main_v17 _ = V c main_v17 _
  congr 1
  funext a
  apply Fin.ext
  match a with
  | ⟨0, _⟩ => show win0_2.index t 0 * 2000 + 1 * (x 0).val = (k 0).val; rw [e0, hk0]; omega
  | ⟨1, _⟩ => show win0_2.index t 1 * 1 + 1 * (x 1).val = (k 1).val; rw [e1, hk1]; omega

/-- What point t writes back is block t of G0 of the region's entry arrays. -/
theorem flushed0_eq (c : Dev nD) (t : Fin cfg0.N) :
    (dat0 V c).flushed 3 t = ((cfg0.win 3).blk t).view.read (Elt Ideal)
      (G0 (V c main_arg0) (V c main_arg2) (V c main_v17)) := by
  show (cfg0.win 3).cut (grid0.coords t) ((dat0 V c).after 3 t) = _
  rw [after0_3]
  unfold out0_3
  rw [View.canon_unit_zero zeros0]
  simp only [View.ld_unit_zero (S := S2000x128) zeros0, View.ld_unit_zero (S := S128x128) zeros0, View.ld_unit_zero (S := S2000x1) zeros0]
  obtain ⟨-, -, -, -, -, -, e0, e1⟩ := index0 t
  have key : ∀ y : S2000x128.Idx, k0_pay1 (iblk0 V c 0 t) (iblk0 V c 1 t) (iblk0 V c 2 t) y
      = G0 (V c main_arg0) (V c main_arg2) (V c main_v17) (((cfg0.win 3).blk t).view.emb y) := by
    intro y
    obtain ⟨p, q, rfl⟩ : ∃ (p : Fin 2000) (q : Fin 128), y = ix2 p q := ⟨y 0, y 1, eq_ix2 y⟩
    rw [pay0_apply]
    unfold G0 prescale Spec.proj
    have h0 : ((((cfg0.win 3).blk t).view.emb (ix2 p q)) 0).val = 2000 * t.val + p.val := by
      show win0_3.index t 0 * 2000 + 1 * p.val = _; rw [e0]; omega
    have h1 : ((((cfg0.win 3).blk t).view.emb (ix2 p q)) 1).val = q.val := by
      show win0_3.index t 1 * 128 + 1 * q.val = _; rw [e1]; omega
    rw [blk0_2_apply V c t (ix2 p (0 : Fin 1)) (ix2 ((((cfg0.win 3).blk t).view.emb (ix2 p q)) 0) (0 : Fin 1)) h0 rfl]
    congr 1
    refine Finset.sum_congr rfl fun k _ => ?_
    rw [blk0_0_apply V c t (ix2 p k) (ix2 ((((cfg0.win 3).blk t).view.emb (ix2 p q)) 0) k) h0 rfl,
      blk0_1_apply V c t (ix2 k q) (ix2 k ((((cfg0.win 3).blk t).view.emb (ix2 p q)) 1)) rfl h1]
  funext j
  rw [View.read_apply]
  exact key j

/-- An index of the array is in point t's block iff each coordinate is in the block's range on its axis. -/
theorem mem_blk0 (t : Fin cfg0.N) (i : S100000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v18).slice (win0_3.rect t)).set ↔ _
  rw [View.set_slice_whole, Rect.mem_set_unit]
  exact Iff.rfl

/-- Row r is in the block of point r / 2000. -/
theorem cover0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 50 := N_0
  let t : Fin cfg0.N := ⟨(i 0).val / 2000, by rw [hN]; omega⟩
  obtain ⟨-, -, -, -, -, -, e0, e1⟩ := index0 t
  have ht : t.val = (i 0).val / 2000 := rfl
  refine ⟨t, flush0_3 t, ?_⟩
  rw [mem_blk0]
  intro a
  match a with
  | ⟨0, _⟩ => show win0_3.index t (0 : Fin 2) * 2000 ≤ (i 0).val ∧ (i 0).val < win0_3.index t (0 : Fin 2) * 2000 + 2000; rw [e0, ht]; omega
  | ⟨1, _⟩ => show win0_3.index t (1 : Fin 2) * 128 ≤ (i 1).val ∧ (i 1).val < win0_3.index t (1 : Fin 2) * 128 + 128; rw [e1]; omega

/-- The first region's result array: every row of the features projected by the weights and scaled by its node's factor. -/
theorem final0 (c : Dev nD) : (dat0 (F := Ideal) V c).arrAt 3 cfg0.N = fun i =>
    prescale (V c main_arg0) (V c main_arg2) (V c main_v17) (i 0) (i 1) :=
  (dat0 V c).arrAt_eq_of_cover 3 (G0 (V c main_arg0) (V c main_arg2) (V c main_v17)) (fun t _ => flushed0_eq V c t) cover0

end Cert.KernelValue

end
-- ==== Proof.Region1.lean ====
/-
  The second grid region as one function of the arrays it is entered with: the 100000 by 128 aggregate, the column
  of 100000 row factors, the row of 128 biases and the 128 by 64 weights go to the table whose entry (n, f) is row n
  of the hidden layer times column f of the weights, multiplied by the factor of row n. The hidden layer's entry
  (n, k) is the aggregate's entry scaled by the factor of row n, the bias of column k added, negative values cut
  to 0. The grid's 50 points each write 2000 consecutive rows; together the row blocks cover the table.
-/
import proofs.«170234_j65386582114681_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«170234_j65386582114681_2_alg».proof.Proof.Spec
import proofs.«170234_j65386582114681_2_alg».proof.Proof.LibKeepdims

set_option maxRecDepth 16384

noncomputable section

namespace Cert.KernelValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zeros1 : (![0, 0] : Fin 2 → Nat) = fun _ => 0 := funext fun a => by fin_cases a <;> rfl

local notation "D1" => dot_S2000x128_S128x64_S2000x64_1_0_0_1_n_n

/-- The product's left operand is read at the result's row and the contraction position, -/
theorem lhs1_row (i : S2000x64.Idx) (q : DotDims.contr D1 |>.Idx) : (DotDims.lhsIdx D1 i q 0).val = (i 0).val := by
  unfold DotDims.lhsIdx
  rw [dif_neg (show ¬(0 : Fin S2000x128.rank) ∈ DotDims.lhsBatch D1 by decide),
    dif_pos (show (0 : Fin S2000x128.rank) ∈ DotDims.lhsNonContracting D1 by decide)]
  rfl
theorem lhs1_col (i : S2000x64.Idx) (q : DotDims.contr D1 |>.Idx) : (DotDims.lhsIdx D1 i q 1).val = (q ⟨0, by decide⟩).val :=
  DotDims.lhsIdx_val_of_single D1 rfl i q
/-- the right operand at the contraction position and the result's column. -/
theorem rhs1_row (i : S2000x64.Idx) (q : DotDims.contr D1 |>.Idx) : (DotDims.rhsIdx D1 i q 0).val = (q ⟨0, by decide⟩).val :=
  DotDims.rhsIdx_val_of_single D1 rfl i q
theorem rhs1_col (i : S2000x64.Idx) (q : DotDims.contr D1 |>.Idx) : (DotDims.rhsIdx D1 i q 1).val = (i 1).val := by
  unfold DotDims.rhsIdx
  rw [dif_neg (show ¬(1 : Fin S128x64.rank) ∈ DotDims.rhsBatch D1 by decide),
    dif_pos (show (1 : Fin S128x64.rank) ∈ DotDims.rhsNonContracting D1 by decide)]
  rfl

/-- The hidden entry the body forms before the product: the aggregate scaled by the row's factor, the bias added,
    negative values cut to 0. -/
theorem hidden_apply (d : Vec Ideal S2000x1 .f32) (a : Vec Ideal S2000x128 .f32) (b : Vec Ideal S1x128 .f32)
    (p : Fin 2000) (k : Fin 128) :
    maximumf (addf (mulf a (broadcastTo S2000x128 d broadcasts_S2000x1_S2000x128))
        (broadcastTo S2000x128 b broadcasts_S1x128_S2000x128))
      (broadcast S2000x128 (Scalar.ofBits (F := Ideal) .f32 0x00000000#32)) (ix2 p k)
      = max (a (ix2 p k) * d (ix2 p (0 : Fin 1)) + b (ix2 (0 : Fin 1) k)) 0 := by
  rw [maximumf_apply, addf_apply, mulf_apply, Keepdims.broadcastTo_a1_ab_apply, broadcastTo_1b_ab_apply, broadcast_apply]
  show max _ (Ideal.ofBits .f32 0x00000000#32) = _
  rw [Ideal.ofBits_zero_f32]

/-- The body at an index: row p of the hidden block times column q of the weights, scaled by the row's factor. -/
theorem pay1_apply (d : Vec Ideal S2000x1 .f32) (a : Vec Ideal S2000x128 .f32) (b : Vec Ideal S1x128 .f32)
    (w : Vec Ideal S128x64 .f32) (p : Fin 2000) (q : Fin 64) :
    k1_pay1 d a b w (ix2 p q)
      = (∑ k : Fin 128, max (a (ix2 p k) * d (ix2 p (0 : Fin 1)) + b (ix2 (0 : Fin 1) k)) 0 * w (ix2 k q)) * d (ix2 p (0 : Fin 1)) := by
  unfold k1_pay1
  simp only [shapeCast_self]
  rw [mulf_apply, Keepdims.broadcastTo_a1_ab_apply]
  refine congrArg (· * d (ix2 p (0 : Fin 1))) ?_
  simp only [matmul]
  rw [Ideal.matmul_constant_zero_apply, ← Equiv.sum_comp (contrEquiv1 D1 128 rfl rfl).symm]
  refine Finset.sum_congr rfl fun k _ => ?_
  have hk := contrEquiv1_symm_val D1 128 rfl rfl k
  have el : DotDims.lhsIdx D1 (ix2 p q) ((contrEquiv1 D1 128 rfl rfl).symm k) = ix2 p k := funext fun a => Fin.ext (by
    match a with
    | ⟨0, _⟩ => exact lhs1_row _ _
    | ⟨1, _⟩ => exact (lhs1_col _ _).trans hk)
  have er : DotDims.rhsIdx D1 (ix2 p q) ((contrEquiv1 D1 128 rfl rfl).symm k) = ix2 k q := funext fun a => Fin.ext (by
    match a with
    | ⟨0, _⟩ => exact (rhs1_row _ _).trans hk
    | ⟨1, _⟩ => exact rhs1_col _ _)
  rw [el, er, truncf_apply, truncf_apply, hidden_apply]

/-- Entry (n, f) of the result: the hidden layer's row n — the aggregate scaled by the node's factor, the bias added,
    negative values cut to 0 — projected by the weights and scaled by the node's factor. -/
def hiddenProject (A : S100000x128.Idx → EReal) (D : S100000x1.Idx → EReal) (B : S1x128.Idx → EReal)
    (W : S128x64.Idx → EReal) (n : Fin 100000) (f : Fin 64) : EReal :=
  Spec.proj (fun n k => max (A (ix2 n k) * D (ix2 n (0 : Fin 1)) + B (ix2 (0 : Fin 1) k)) 0) W n f * D (ix2 n (0 : Fin 1))

/-- The whole result array. -/
def G1 (A : S100000x128.Idx → EReal) (D : S100000x1.Idx → EReal) (B : S1x128.Idx → EReal)
    (W : S128x64.Idx → EReal) : S100000x64.Idx → EReal :=
  fun i => hiddenProject A D B W (i 0) (i 1)

/-- The block indices at each grid point: the row-blocked windows sit at block row t, the bias and the weights at
    block (0, 0). -/
theorem index1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Block t of the aggregate: rows 2000·t … 2000·t + 1999. -/
theorem blk1_0_apply (c : Dev nD) (t : Fin cfg1.N) (x : S2000x128.Idx) (k : S100000x128.Idx)
    (hk0 : (k 0).val = 2000 * t.val + (x 0).val) (hk1 : (k 1).val = (x 1).val) :
    (iblk1 V c 0 t : Vec Ideal S2000x128 .f32) x = (V c main_v28 : S100000x128.Idx → EReal) k := by
  obtain ⟨e0, e1, -⟩ := index1 t
  unfold iblk1
  rw [View.read_apply]
  show V c main_v28 _ = V c main_v28 _
  congr 1
  funext a
  apply Fin.ext
  match a with
  | ⟨0, _⟩ => show win1_0.index t 0 * 2000 + 1 * (x 0).val = (k 0).val; rw [e0, hk0]; omega
  | ⟨1, _⟩ => show win1_0.index t 1 * 128 + 1 * (x 1).val = (k 1).val; rw [e1, hk1]; omega

/-- Block t of the scale column: rows 2000·t … 2000·t + 1999. -/
theorem blk1_1_apply (c : Dev nD) (t : Fin cfg1.N) (x : S2000x1.Idx) (k : S100000x1.Idx)
    (hk0 : (k 0).val = 2000 * t.val + (x 0).val) (hk1 : (k 1).val = (x 1).val) :
    (iblk1 V c 1 t : Vec Ideal S2000x1 .f32) x = (V c main_v17 : S100000x1.Idx → EReal) k := by
  obtain ⟨-, -, e0, e1, -⟩ := index1 t
  unfold iblk1
  rw [View.read_apply]
  show V c main_v17 _ = V c main_v17 _
  congr 1
  funext a
  apply Fin.ext
  match a with
  | ⟨0, _⟩ => show win1_1.index t 0 * 2000 + 1 * (x 0).val = (k 0).val; rw [e0, hk0]; omega
  | ⟨1, _⟩ => show win1_1.index t 1 * 1 + 1 * (x 1).val = (k 1).val; rw [e1, hk1]; omega

/-- The bias row's block is the whole row at every point. -/
theorem blk1_2_apply (c : Dev nD) (t : Fin cfg1.N) (x : S1x128.Idx) (k : S1x128.Idx)
    (hk0 : (k 0).val = (x 0).val) (hk1 : (k 1).val = (x 1).val) :
    (iblk1 V c 2 t : Vec Ideal S1x128 .f32) x = (V c main_v29 : S1x128.Idx → EReal) k := by
  obtain ⟨-, -, -, -, e0, e1, -⟩ := index1 t
  unfold iblk1
  rw [View.read_apply]
  show V c main_v29 _ = V c main_v29 _
  congr 1
  funext a
  apply Fin.ext
  match a with
  | ⟨0, _⟩ => show win1_2.index t 0 * 1 + 1 * (x 0).val = (k 0).val; rw [e0, hk0]; omega
  | ⟨1, _⟩ => show win1_2.index t 1 * 128 + 1 * (x 1).val = (k 1).val; rw [e1, hk1]; omega

/-- The weights' block is the whole matrix at every point. -/
theorem blk1_3_apply (c : Dev nD) (t : Fin cfg1.N) (x : S128x64.Idx) (k : S128x64.Idx)
    (hk0 : (k 0).val = (x 0).val) (hk1 : (k 1).val = (x 1).val) :
    (iblk1 V c 3 t : Vec Ideal S128x64 .f32) x = (V c main_arg4 : S128x64.Idx → EReal) k := by
  obtain ⟨-, -, -, -, -, -, e0, e1, -⟩ := index1 t
  unfold iblk1
  rw [View.read_apply]
  show V c main_arg4 _ = V c main_arg4 _
  congr 1
  funext a
  apply Fin.ext
  match a with
  | ⟨0, _⟩ => show win1_3.index t 0 * 128 + 1 * (x 0).val = (k 0).val; rw [e0, hk0]; omega
  | ⟨1, _⟩ => show win1_3.index t 1 * 64 + 1 * (x 1).val = (k 1).val; rw [e1, hk1]; omega

/-- What point t writes back is block t of G1 of the region's entry arrays. -/
theorem flushed1_eq (c : Dev nD) (t : Fin cfg1.N) :
    (dat1 V c).flushed 4 t = ((cfg1.win 4).blk t).view.read (Elt Ideal)
      (G1 (V c main_v28) (V c main_v17) (V c main_v29) (V c main_arg4)) := by
  show (cfg1.win 4).cut (grid1.coords t) ((dat1 V c).after 4 t) = _
  rw [after1_4]
  unfold out1_4
  rw [View.canon_unit_zero zeros1]
  simp only [View.ld_unit_zero (S := S2000x128) zeros1, View.ld_unit_zero (S := S2000x1) zeros1,
    View.ld_unit_zero (S := S1x128) zeros1, View.ld_unit_zero (S := S128x64) zeros1]
  obtain ⟨-, -, -, -, -, -, -, -, e0, e1⟩ := index1 t
  have key : ∀ y : S2000x64.Idx, k1_pay1 (iblk1 V c 1 t) (iblk1 V c 0 t) (iblk1 V c 2 t) (iblk1 V c 3 t) y
      = G1 (V c main_v28) (V c main_v17) (V c main_v29) (V c main_arg4) (((cfg1.win 4).blk t).view.emb y) := by
    intro y
    obtain ⟨p, q, rfl⟩ : ∃ (p : Fin 2000) (q : Fin 64), y = ix2 p q := ⟨y 0, y 1, eq_ix2 y⟩
    rw [pay1_apply]
    unfold G1 hiddenProject Spec.proj
    have h0 : ((((cfg1.win 4).blk t).view.emb (ix2 p q)) 0).val = 2000 * t.val + p.val := by
      show win1_4.index t 0 * 2000 + 1 * p.val = _; rw [e0]; omega
    have h1 : ((((cfg1.win 4).blk t).view.emb (ix2 p q)) 1).val = q.val := by
      show win1_4.index t 1 * 64 + 1 * q.val = _; rw [e1]; omega
    rw [blk1_1_apply V c t (ix2 p (0 : Fin 1)) (ix2 ((((cfg1.win 4).blk t).view.emb (ix2 p q)) 0) (0 : Fin 1)) h0 rfl]
    refine congrArg (· * _) (Finset.sum_congr rfl fun k _ => ?_)
    rw [blk1_0_apply V c t (ix2 p k) (ix2 ((((cfg1.win 4).blk t).view.emb (ix2 p q)) 0) k) h0 rfl,
      blk1_2_apply V c t (ix2 (0 : Fin 1) k) (ix2 (0 : Fin 1) k) rfl rfl,
      blk1_3_apply V c t (ix2 k q) (ix2 k ((((cfg1.win 4).blk t).view.emb (ix2 p q)) 1)) rfl h1]
  funext j
  rw [View.read_apply]
  exact key j

/-- An index of the array is in point t's block iff each coordinate is in the block's range on its axis. -/
theorem mem_blk1 (t : Fin cfg1.N) (i : S100000x64.Idx) :
    i ∈ ((cfg1.win 4).blk t).view.set ↔ ∀ a : Fin 2, win1_4.index t a * S2000x64.size a ≤ (i a).val ∧ (i a).val < win1_4.index t a * S2000x64.size a + S2000x64.size a := by
  show i ∈ ((View.whole main_v30).slice (win1_4.rect t)).set ↔ _
  rw [View.set_slice_whole, Rect.mem_set_unit]
  exact Iff.rfl

/-- Row r is in the block of point r / 2000. -/
theorem cover1 (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  have hN : cfg1.N = 50 := N_1
  let t : Fin cfg1.N := ⟨(i 0).val / 2000, by rw [hN]; omega⟩
  obtain ⟨-, -, -, -, -, -, -, -, e0, e1⟩ := index1 t
  have ht : t.val = (i 0).val / 2000 := rfl
  refine ⟨t, flush1_4 t, ?_⟩
  rw [mem_blk1]
  intro a
  match a with
  | ⟨0, _⟩ => show win1_4.index t (0 : Fin 2) * 2000 ≤ (i 0).val ∧ (i 0).val < win1_4.index t (0 : Fin 2) * 2000 + 2000; rw [e0, ht]; omega
  | ⟨1, _⟩ => show win1_4.index t (1 : Fin 2) * 64 ≤ (i 1).val ∧ (i 1).val < win1_4.index t (1 : Fin 2) * 64 + 64; rw [e1]; omega

/-- The second region's result array: the hidden layer of every node projected by the weights and scaled by the
    node's factor. -/
theorem final1 (c : Dev nD) : (dat1 (F := Ideal) V c).arrAt 4 cfg1.N = fun i =>
    hiddenProject (V c main_v28) (V c main_v17) (V c main_v29) (V c main_arg4) (i 0) (i 1) :=
  (dat1 V c).arrAt_eq_of_cover 4 (G1 (V c main_v28) (V c main_v17) (V c main_v29) (V c main_arg4)) (fun t _ => flushed1_eq V c t) cover1

end Cert.KernelValue

end
-- ==== Proof.Region2.lean ====
/-
  The third grid region as one function of the arrays it is entered with: a table of 100000 rows by 64 columns,
  a column of 100000 row factors and a row of 64 biases go to the table with every entry (n, f) multiplied by the
  factor of row n and the bias of column f added. The grid's 50 points each write 2000 consecutive rows; together
  the row blocks cover the table.
-/
import proofs.«170234_j65386582114681_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«170234_j65386582114681_2_alg».proof.Proof.Spec
import proofs.«170234_j65386582114681_2_alg».proof.Proof.LibKeepdims

set_option maxRecDepth 16384

noncomputable section

namespace Cert.KernelValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zeros2 : (![0, 0] : Fin 2 → Nat) = fun _ => 0 := funext fun a => by fin_cases a <;> rfl

/-- The body at an index: the entry scaled by its row's factor, the column's bias added. -/
theorem pay2_apply (x0 : Vec Ideal S2000x64 .f32) (x1 : Vec Ideal S2000x1 .f32) (x2 : Vec Ideal S1x64 .f32)
    (p : Fin 2000) (q : Fin 64) :
    k2_pay1 x0 x1 x2 (ix2 p q) = x0 (ix2 p q) * x1 (ix2 p (0 : Fin 1)) + x2 (ix2 (0 : Fin 1) q) := by
  unfold k2_pay1
  rw [addf_apply, mulf_apply, shapeCast_self, shapeCast_self, shapeCast_self,
    Keepdims.broadcastTo_a1_ab_apply, broadcastTo_1b_ab_apply]

/-- Entry (n, f) of the result: row n of the table scaled by the node's factor, the bias of column f added. -/
def scaleBias (A : S100000x64.Idx → EReal) (D : S100000x1.Idx → EReal) (B : S1x64.Idx → EReal)
    (n : Fin 100000) (f : Fin 64) : EReal :=
  A (ix2 n f) * D (ix2 n (0 : Fin 1)) + B (ix2 (0 : Fin 1) f)

/-- The whole result array. -/
def G2 (A : S100000x64.Idx → EReal) (D : S100000x1.Idx → EReal) (B : S1x64.Idx → EReal) : S100000x64.Idx → EReal :=
  fun i => scaleBias A D B (i 0) (i 1)

/-- The block indices at each grid point: the row-blocked windows sit at block row t, the bias at block (0, 0). -/
theorem index2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Block t of the table: rows 2000·t … 2000·t + 1999. -/
theorem blk2_0_apply (c : Dev nD) (t : Fin cfg2.N) (x : S2000x64.Idx) (k : S100000x64.Idx)
    (hk0 : (k 0).val = 2000 * t.val + (x 0).val) (hk1 : (k 1).val = (x 1).val) :
    (iblk2 V c 0 t : Vec Ideal S2000x64 .f32) x = (V c main_v40 : S100000x64.Idx → EReal) k := by
  obtain ⟨e0, e1, -⟩ := index2 t
  unfold iblk2
  rw [View.read_apply]
  show V c main_v40 _ = V c main_v40 _
  congr 1
  funext a
  apply Fin.ext
  match a with
  | ⟨0, _⟩ => show win2_0.index t 0 * 2000 + 1 * (x 0).val = (k 0).val; rw [e0, hk0]; omega
  | ⟨1, _⟩ => show win2_0.index t 1 * 64 + 1 * (x 1).val = (k 1).val; rw [e1, hk1]; omega

/-- Block t of the scale column: rows 2000·t … 2000·t + 1999. -/
theorem blk2_1_apply (c : Dev nD) (t : Fin cfg2.N) (x : S2000x1.Idx) (k : S100000x1.Idx)
    (hk0 : (k 0).val = 2000 * t.val + (x 0).val) (hk1 : (k 1).val = (x 1).val) :
    (iblk2 V c 1 t : Vec Ideal S2000x1 .f32) x = (V c main_v17 : S100000x1.Idx → EReal) k := by
  obtain ⟨-, -, e0, e1, -⟩ := index2 t
  unfold iblk2
  rw [View.read_apply]
  show V c main_v17 _ = V c main_v17 _
  congr 1
  funext a
  apply Fin.ext
  match a with
  | ⟨0, _⟩ => show win2_1.index t 0 * 2000 + 1 * (x 0).val = (k 0).val; rw [e0, hk0]; omega
  | ⟨1, _⟩ => show win2_1.index t 1 * 1 + 1 * (x 1).val = (k 1).val; rw [e1, hk1]; omega

/-- The bias row's block is the whole row at every point. -/
theorem blk2_2_apply (c : Dev nD) (t : Fin cfg2.N) (x : S1x64.Idx) (k : S1x64.Idx)
    (hk0 : (k 0).val = (x 0).val) (hk1 : (k 1).val = (x 1).val) :
    (iblk2 V c 2 t : Vec Ideal S1x64 .f32) x = (V c main_v41 : S1x64.Idx → EReal) k := by
  obtain ⟨-, -, -, -, e0, e1, -⟩ := index2 t
  unfold iblk2
  rw [View.read_apply]
  show V c main_v41 _ = V c main_v41 _
  congr 1
  funext a
  apply Fin.ext
  match a with
  | ⟨0, _⟩ => show win2_2.index t 0 * 1 + 1 * (x 0).val = (k 0).val; rw [e0, hk0]; omega
  | ⟨1, _⟩ => show win2_2.index t 1 * 64 + 1 * (x 1).val = (k 1).val; rw [e1, hk1]; omega

/-- What point t writes back is block t of G2 of the region's entry arrays. -/
theorem flushed2_eq (c : Dev nD) (t : Fin cfg2.N) :
    (dat2 V c).flushed 3 t = ((cfg2.win 3).blk t).view.read (Elt Ideal)
      (G2 (V c main_v40) (V c main_v17) (V c main_v41)) := by
  show (cfg2.win 3).cut (grid2.coords t) ((dat2 V c).after 3 t) = _
  rw [after2_3]
  unfold out2_3
  rw [View.canon_unit_zero zeros2]
  simp only [View.ld_unit_zero (S := S2000x64) zeros2, View.ld_unit_zero (S := S2000x1) zeros2, View.ld_unit_zero (S := S1x64) zeros2]
  obtain ⟨-, -, -, -, -, -, e0, e1⟩ := index2 t
  have key : ∀ y : S2000x64.Idx, k2_pay1 (iblk2 V c 0 t) (iblk2 V c 1 t) (iblk2 V c 2 t) y
      = G2 (V c main_v40) (V c main_v17) (V c main_v41) (((cfg2.win 3).blk t).view.emb y) := by
    intro y
    obtain ⟨p, q, rfl⟩ : ∃ (p : Fin 2000) (q : Fin 64), y = ix2 p q := ⟨y 0, y 1, eq_ix2 y⟩
    rw [pay2_apply]
    unfold G2 scaleBias
    have h0 : ((((cfg2.win 3).blk t).view.emb (ix2 p q)) 0).val = 2000 * t.val + p.val := by
      show win2_3.index t 0 * 2000 + 1 * p.val = _; rw [e0]; omega
    have h1 : ((((cfg2.win 3).blk t).view.emb (ix2 p q)) 1).val = q.val := by
      show win2_3.index t 1 * 64 + 1 * q.val = _; rw [e1]; omega
    rw [blk2_0_apply V c t (ix2 p q) (ix2 ((((cfg2.win 3).blk t).view.emb (ix2 p q)) 0) ((((cfg2.win 3).blk t).view.emb (ix2 p q)) 1)) h0 h1,
      blk2_1_apply V c t (ix2 p (0 : Fin 1)) (ix2 ((((cfg2.win 3).blk t).view.emb (ix2 p q)) 0) (0 : Fin 1)) h0 rfl,
      blk2_2_apply V c t (ix2 (0 : Fin 1) q) (ix2 (0 : Fin 1) ((((cfg2.win 3).blk t).view.emb (ix2 p q)) 1)) rfl h1]
  funext j
  rw [View.read_apply]
  exact key j

/-- An index of the array is in point t's block iff each coordinate is in the block's range on its axis. -/
theorem mem_blk2 (t : Fin cfg2.N) (i : S100000x64.Idx) :
    i ∈ ((cfg2.win 3).blk t).view.set ↔ ∀ a : Fin 2, win2_3.index t a * S2000x64.size a ≤ (i a).val ∧ (i a).val < win2_3.index t a * S2000x64.size a + S2000x64.size a := by
  show i ∈ ((View.whole main_v42).slice (win2_3.rect t)).set ↔ _
  rw [View.set_slice_whole, Rect.mem_set_unit]
  exact Iff.rfl

/-- Row r is in the block of point r / 2000. -/
theorem cover2 (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  have hN : cfg2.N = 50 := N_2
  let t : Fin cfg2.N := ⟨(i 0).val / 2000, by rw [hN]; omega⟩
  obtain ⟨-, -, -, -, -, -, e0, e1⟩ := index2 t
  have ht : t.val = (i 0).val / 2000 := rfl
  refine ⟨t, flush2_3 t, ?_⟩
  rw [mem_blk2]
  intro a
  match a with
  | ⟨0, _⟩ => show win2_3.index t (0 : Fin 2) * 2000 ≤ (i 0).val ∧ (i 0).val < win2_3.index t (0 : Fin 2) * 2000 + 2000; rw [e0, ht]; omega
  | ⟨1, _⟩ => show win2_3.index t (1 : Fin 2) * 64 ≤ (i 1).val ∧ (i 1).val < win2_3.index t (1 : Fin 2) * 64 + 64; rw [e1]; omega

/-- The third region's result array: every entry of the aggregate scaled by its row's factor, the bias added. -/
theorem final2 (c : Dev nD) : (dat2 (F := Ideal) V c).arrAt 3 cfg2.N = fun i =>
    scaleBias (V c main_v40) (V c main_v17) (V c main_v41) (i 0) (i 1) :=
  (dat2 V c).arrAt_eq_of_cover 3 (G2 (V c main_v40) (V c main_v17) (V c main_v41)) (fun t _ => flushed2_eq V c t) cover2

end Cert.KernelValue

end
-- ==== Proof.KernelValue.lean ====
/-
  The idealized kernel's result array, index by index, is the first arrangement of the specification.

  Reading the fold of the program's segments backwards from the result: the third pipeline scales the second
  aggregate by the node scale and adds the second bias; the second aggregate gathers and adds up the second
  pipeline's rows; the second pipeline projects the hidden layer and scales each row, the hidden layer being the
  first aggregate scaled, the first bias added, negative entries cut to 0; the first aggregate gathers and adds up
  the first pipeline's rows, which are the projected features scaled row by row. The index words and the scale
  column every step reads are the ones the first host stretches computed, carried unchanged to where they are read.
-/
import proofs.«170234_j65386582114681_2_alg».proof.Proof.HostFold
import proofs.«170234_j65386582114681_2_alg».proof.Proof.Region0
import proofs.«170234_j65386582114681_2_alg».proof.Proof.Region1
import proofs.«170234_j65386582114681_2_alg».proof.Proof.Region2

set_option maxRecDepth 16384

noncomputable section

namespace Cert.KernelValue

open Cert.KernelIdeal Cert.KernelIdeal.Gen
open Idealize.ShloMosaic Idealize.ShloMosaic.TcCoe Idealize.ShloMosaic.StableHlo
open Idealize.SL.Sem Idealize.ShloMosaic.ValueIdx

variable (m : (ℓ : Loc nD τ sig) → Buf (Elt Ideal) ℓ) (ρ : Dev nD → PrngReg) (c : Dev nD)

/-- The arguments as the specification takes them. -/
abbrev xK : Fin 100000 → Fin 128 → EReal := fun n k => (m ((c : Thread nD τ).loc main_arg0) : S100000x128.Idx → EReal) (ix2 n k)
abbrev w1K : S128x128.Idx → EReal := m ((c : Thread nD τ).loc main_arg2)
abbrev b1K : Fin 128 → EReal := fun f => (m ((c : Thread nD τ).loc main_arg3) : S128.Idx → EReal) (ix1 f)
abbrev w2K : S128x64.Idx → EReal := m ((c : Thread nD τ).loc main_arg4)
abbrev b2K : Fin 64 → EReal := fun g => (m ((c : Thread nD τ).loc main_arg5) : S64.Idx → EReal) (ix1 g)

/-- An array read at an index, as an extended real. -/
abbrev rd (s : Shape) (v : s.Idx → EReal) (i : s.Idx) : EReal := v i

/-- The first pipeline's result: the projected features, each row scaled. -/
theorem pre1_at (n : Fin 100000) (f : Fin 128) :
    (W4 (F := Ideal) m ρ c (Proc.devRef .tc main_v18) : S100000x128.Idx → EReal) (ix2 n f)
      = Spec.pre1 (xK m c) (w1K m c) (disK m ρ c) n f := by
  refine (congrFun ((W4_arr m ρ c 3).trans (final0 (V3 m ρ) c)) (ix2 n f)).trans ?_
  show prescale (W3 m ρ c (Proc.devRef .tc main_arg0)) (W3 m ρ c (Proc.devRef .tc main_arg2))
      (W3 m ρ c (Proc.devRef .tc main_v17)) n f = _
  rw [arg0_at3, arg2_at3]
  unfold prescale Spec.pre1
  rw [d3_at]

/-- The first aggregate. -/
theorem agg1_at (j : Fin 100000) (f : Fin 128) :
    (W5 (F := Ideal) m ρ c (Proc.devRef .tc main_v28) : S100000x128.Idx → EReal) (ix2 j f)
      = Spec.aggPre (rowK m ρ c) (colK m ρ c) (Spec.pre1 (xK m c) (w1K m c) (disK m ρ c)) j f := by
  rw [agg5_at, v5_at4, v6_at4]
  have ht : (fun n f => (W4 (F := Ideal) m ρ c (Proc.devRef .tc main_v18) : S100000x128.Idx → EReal) (ix2 n f))
      = Spec.pre1 (xK m c) (w1K m c) (disK m ρ c) := funext fun n => funext fun f => pre1_at m ρ c n f
  rw [ht]

/-- The hidden layer as the second pipeline reads it, at (n, k). -/
theorem hid1_at (n : Fin 100000) (k : Fin 128) :
    max (rd S100000x128 (W5 (F := Ideal) m ρ c (Proc.devRef .tc main_v28)) (ix2 n k)
        * rd S100000x1 (W3 (F := Ideal) m ρ c (Proc.devRef .tc main_v17)) (ix2 n (0 : Fin 1))
        + rd S1x128 (W5 (F := Ideal) m ρ c (Proc.devRef .tc main_v29)) (ix2 (0 : Fin 1) k)) 0
      = Spec.hid1 (xK m c) (w1K m c) (b1K m c) (disK m ρ c) (rowK m ρ c) (colK m ρ c) n k := by
  unfold rd
  rw [agg1_at, d3_at, b1_at, arg3_at4]
  rfl

/-- The second pipeline's result: the projected hidden layer, each row scaled. -/
theorem pre2_at (n : Fin 100000) (g : Fin 64) :
    (W6 (F := Ideal) m ρ c (Proc.devRef .tc main_v30) : S100000x64.Idx → EReal) (ix2 n g)
      = Spec.pre2 (xK m c) (w1K m c) (b1K m c) (w2K m c) (disK m ρ c) (rowK m ρ c) (colK m ρ c) n g := by
  refine (congrFun ((W6_arr m ρ c 4).trans (final1 (V5 m ρ) c)) (ix2 n g)).trans ?_
  show hiddenProject (W5 m ρ c (Proc.devRef .tc main_v28)) (W5 m ρ c (Proc.devRef .tc main_v17))
      (W5 m ρ c (Proc.devRef .tc main_v29)) (W5 m ρ c (Proc.devRef .tc main_arg4)) n g = _
  rw [v17_at5, arg4_at5]
  unfold hiddenProject Spec.pre2 Spec.proj
  rw [d3_at]
  refine congrArg (fun s : EReal => s * disK m ρ c n) ?_
  refine Finset.sum_congr rfl fun k _ => ?_
  exact congrArg (fun s : EReal => s * w2K m c (ix2 k g)) (hid1_at m ρ c n k)

/-- The second aggregate. -/
theorem agg2_at (j : Fin 100000) (g : Fin 64) :
    (W7 (F := Ideal) m ρ c (Proc.devRef .tc main_v40) : S100000x64.Idx → EReal) (ix2 j g)
      = Spec.aggPre (rowK m ρ c) (colK m ρ c)
          (Spec.pre2 (xK m c) (w1K m c) (b1K m c) (w2K m c) (disK m ρ c) (rowK m ρ c) (colK m ρ c)) j g := by
  rw [agg7_at, v5_at6, v6_at6]
  have ht : (fun n g => (W6 (F := Ideal) m ρ c (Proc.devRef .tc main_v30) : S100000x64.Idx → EReal) (ix2 n g))
      = Spec.pre2 (xK m c) (w1K m c) (b1K m c) (w2K m c) (disK m ρ c) (rowK m ρ c) (colK m ρ c) :=
    funext fun n => funext fun g => pre2_at m ρ c n g
  rw [ht]

/-- The result at (n, g). -/
theorem out_at (n : Fin 100000) (g : Fin 64) :
    (W8 (F := Ideal) m ρ c (Proc.devRef .tc main_v42) : S100000x64.Idx → EReal) (ix2 n g)
      = Spec.outPre (xK m c) (w1K m c) (b1K m c) (w2K m c) (b2K m c) (disK m ρ c) (rowK m ρ c) (colK m ρ c) n g := by
  refine (congrFun ((W8_arr m ρ c 3).trans (final2 (V7 m ρ) c)) (ix2 n g)).trans ?_
  show scaleBias (W7 m ρ c (Proc.devRef .tc main_v40)) (W7 m ρ c (Proc.devRef .tc main_v17))
      (W7 m ρ c (Proc.devRef .tc main_v41)) n g = _
  rw [v17_at7]
  unfold scaleBias Spec.outPre
  rw [agg2_at, d3_at, b2_at, arg5_at6]

/-- The kernel's result array is the first arrangement of the specification. -/
theorem kernel_value :
    (W8 (F := Ideal) m ρ c (Proc.devRef .tc main_v42) : S100000x64.Idx → EReal)
      = fun i => Spec.outPre (xK m c) (w1K m c) (b1K m c) (w2K m c) (b2K m c) (disK m ρ c) (rowK m ρ c) (colK m ρ c)
          (i 0) (i 1) := by
  funext i
  obtain ⟨n, g, rfl⟩ : ∃ (n : Fin 100000) (g : Fin 64), i = ix2 n g := ⟨i 0, i 1, eq_ix2 i⟩
  exact out_at m ρ c n g

end Cert.KernelValue

end
-- ==== Proof.RefValue.lean ====
/-
  The reference program's result, read index by index.

  The reference aggregates in the second arrangement of the specification: every edge e gathers the row of the
  projected table named by its normalised source word, multiplies it by the edge's own factor
  (d source · 1) · d destination, and the products are scatter-added onto a zero table at the raw destination
  words; a bias is added, and between the two layers negative entries are cut to 0. Reading each host operation at
  an index — a gather at its clamped start index, a scatter-add as the sum over the update rows that land on the
  entry, a product of matrices as the sum over the contracted coordinate — gives exactly Spec.outNorm with the node
  scale, the source words and the destination words left as the opaque vectors the program computes for them.
-/
import proofs.«170234_j65386582114681_2_alg».proof.Proof.RefRead
import proofs.«170234_j65386582114681_2_alg».proof.Proof.Spec
import proofs.«170234_j65386582114681_2_alg».proof.Proof.LibGatherRows

noncomputable section

open scoped BigOperators

namespace Cert.RefValue

open Cert.ReferenceIdeal Cert.ReferenceIdeal.ReadP Idealize.ShloMosaic Idealize.ShloMosaic.ValueIdx Cert.GatherRows

/-! ## Words and constants -/

/-- The reference's index normalisation at one word: a select on "the word is negative" between the word plus the
    number of nodes and the word itself. -/
theorem nrm_word (w : BitVec 32) :
    Scalar.select (IntOp.cmpi .slt w 0#32) (IntOp.addi w 100000#32) w = Spec.nrmW w := by
  unfold Spec.nrmW IntOp.cmpi IntOp.addi Scalar.select
  cases h : w.slt 0#32
  · simp
  · simp

/-- The word 0x3F800000 encodes the real number 1. -/
theorem one_word : Ideal.ofBits .f32 0x3F800000#32 = 1 := by
  simp [Ideal.ofBits, Ideal.ieee, -EReal.coe_mul]; norm_num

/-! ## Gathering from a vector -/

section Vec

variable {α : Type}

/-- The dimension numbers of a gather from a vector: operand N, start indices R×1 (the index vector on axis 1),
    result R; the operand's one axis is collapsed and indexed, there is no offset axis, a slice is one entry. -/
abbrev vecDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- Entry e of a gather from a vector is the vector's entry named by the e-th start index, read signed and clamped
    into [0, N − 1]. -/
theorem gather_vec_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (e : Fin R) :
    Host.gather (vecDims N R wf) x idx (ix1 e)
      = x (ix1 ⟨min (idx (ix2 e 0)).toInt.toNat (N - 1), by omega⟩) := by
  unfold Host.gather
  congr 1
  funext a
  obtain rfl : a = 0 := Subsingleton.elim _ _
  refine Fin.ext ?_
  show (vecDims N R wf).start (ix1 e) idx 0 + (vecDims N R wf).batchCoord (ix1 e) 0
      + (vecDims N R wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N R wf).startIndexMap from List.mem_singleton.mpr rfl)]
  have hsi : (vecDims N R wf).siIdx (ix1 e) ⟨List.idxOf (0 : Fin 1) (vecDims N R wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

end Vec

/-! ## One aggregation: gather rows, multiply by the edge factors, scatter-add onto zero -/

/-- Rows of a table T gathered at index words idxG, multiplied entry by entry by M and scatter-added onto a zero
    table at index words idxS: entry (j, f) is the sum over the edges whose scatter word, read signed, is j of the
    gathered row's entry times M's. When the gather words are the normalised source words, the scatter words the
    destination words and M the edge factor in every column, this is the second arrangement's aggregation. -/
theorem agg_norm_apply {C : Nat}
    (wfG : GatherDims.WF ⟨2, ![100000, C]⟩ ⟨2, ![1700000, 1]⟩ ⟨2, ![1700000, C]⟩ [1] [0] [] [0] [] 1 ![1, C])
    (wfS : ScatterDims.WF ⟨2, ![100000, C]⟩ ⟨2, ![1700000, 1]⟩ ⟨2, ![1700000, C]⟩ [1] [0] [0] 1)
    (Z : FVec Ideal ⟨2, ![100000, C]⟩ .f32) (hZ : ∀ i, Z i = 0)
    (T : FVec Ideal ⟨2, ![100000, C]⟩ .f32) (idxG idxS : IVec ⟨2, ![1700000, 1]⟩ 32)
    (M : FVec Ideal ⟨2, ![1700000, C]⟩ .f32)
    (d : Fin 100000 → EReal) (rowW colW : Fin 1700000 → BitVec 32)
    (hG : ∀ e : Fin 1700000, idxG (ix2 e 0) = Spec.nrmW (rowW e))
    (hS : ∀ e : Fin 1700000, idxS (ix2 e 0) = colW e)
    (hM : ∀ (e : Fin 1700000) (f : Fin C), M (ix2 e f) = Spec.edgeNorm d rowW colW e)
    (j : Fin 100000) (f : Fin C) :
    Host.scatterAdd (F := Ideal) (rowsScatterDims 100000 1700000 C wfS) Z idxS
        (mulf (Host.gather (rowsDims 100000 1700000 C wfG) T idxG) M) (ix2 j f)
      = Spec.aggNorm d rowW colW (fun n c => T (ix2 n c)) j f := by
  show Ideal.hostScatterAdd (rowsScatterDims 100000 1700000 C wfS) Z idxS
        (mulf (Host.gather (rowsDims 100000 1700000 C wfG) T idxG) M) (ix2 j f) = _
  rw [scatterAdd_rows_apply, hZ, zero_add]
  unfold Spec.aggNorm
  refine Finset.sum_congr rfl fun e _ => ?_
  have hrow : Host.gather (rowsDims 100000 1700000 C wfG) T idxG (ix2 e f)
      = T (ix2 (Spec.rowOf (idxG (ix2 e 0))) f) := gather_rows_apply (by decide) wfG T idxG e f
  rw [hS, mulf_apply, hrow, hG, hM]

/-! ## The reference's stages at an index -/

section Stages

variable (a0 : (⟨S100000x128, .f32⟩ : BufTy).Contents (Elt Ideal)) (a1 : (⟨S2x1600000, .i32⟩ : BufTy).Contents (Elt Ideal))
  (a2 : (⟨S128x128, .f32⟩ : BufTy).Contents (Elt Ideal)) (a3 : (⟨S128, .f32⟩ : BufTy).Contents (Elt Ideal))
  (a4 : (⟨S128x64, .f32⟩ : BufTy).Contents (Elt Ideal)) (a5 : (⟨S64, .f32⟩ : BufTy).Contents (Elt Ideal))

/-- The node scale the program computes, as a function of the node. -/
abbrev scale : Fin 100000 → EReal := fun n => val_main_v16 (F := Ideal) a1 (ix1 n)
/-- The source word of every edge (the given edges, then the self loops). -/
abbrev srcW : Fin 1700000 → BitVec 32 := fun e => val_main_v5 (F := Ideal) a1 (ix1 e)
/-- The destination word of every edge. -/
abbrev dstW : Fin 1700000 → BitVec 32 := fun e => val_main_v6 (F := Ideal) a1 (ix1 e)

/-! ### The normalised index words, as vectors and as columns -/

theorem v21_at (e : Fin 1700000) : val_main_v21 (F := Ideal) a1 (ix1 e) = Spec.nrmW (srcW a1 e) := by
  rw [val_main_v21_apply, val_main_v18_apply, val_main_v20_apply, val_main_v17_apply, val_main_v19_apply,
    val_main_c_apply, val_main_c_4_apply]
  exact nrm_word _

theorem v29_at (e : Fin 1700000) : val_main_v29 (F := Ideal) a1 (ix1 e) = Spec.nrmW (dstW a1 e) := by
  rw [val_main_v29_apply, val_main_v26_apply, val_main_v28_apply, val_main_v25_apply, val_main_v27_apply,
    val_main_c_5_apply, val_main_c_6_apply]
  exact nrm_word _

theorem v38_at (e : Fin 1700000) : val_main_v38 (F := Ideal) a1 (ix1 e) = Spec.nrmW (srcW a1 e) := by
  rw [val_main_v38_apply, val_main_v35_apply, val_main_v37_apply, val_main_v34_apply, val_main_v36_apply,
    val_main_c_7_apply, val_main_c_8_apply]
  exact nrm_word _

theorem v56_at (e : Fin 1700000) : val_main_v56 (F := Ideal) a1 (ix1 e) = Spec.nrmW (srcW a1 e) := by
  rw [val_main_v56_apply, val_main_v53_apply, val_main_v55_apply, val_main_v52_apply, val_main_v54_apply,
    val_main_c_10_apply, val_main_c_11_apply]
  exact nrm_word _

theorem v22_at (e : Fin 1700000) : val_main_v22 (F := Ideal) a1 (ix2 e 0) = Spec.nrmW (srcW a1 e) := by
  have hi : idx_main_v22 (ix2 e (0 : Fin 1)) = ix1 e := funext fun a => Fin.ext (by match a with | ⟨0, _⟩ => rfl)
  rw [val_main_v22_apply, hi, v21_at]

theorem v30_at (e : Fin 1700000) : val_main_v30 (F := Ideal) a1 (ix2 e 0) = Spec.nrmW (dstW a1 e) := by
  have hi : idx_main_v30 (ix2 e (0 : Fin 1)) = ix1 e := funext fun a => Fin.ext (by match a with | ⟨0, _⟩ => rfl)
  rw [val_main_v30_apply, hi, v29_at]

theorem v39_at (e : Fin 1700000) : val_main_v39 (F := Ideal) a1 (ix2 e 0) = Spec.nrmW (srcW a1 e) := by
  have hi : idx_main_v39 (ix2 e (0 : Fin 1)) = ix1 e := funext fun a => Fin.ext (by match a with | ⟨0, _⟩ => rfl)
  rw [val_main_v39_apply, hi, v38_at]

theorem v57_at (e : Fin 1700000) : val_main_v57 (F := Ideal) a1 (ix2 e 0) = Spec.nrmW (srcW a1 e) := by
  have hi : idx_main_v57 (ix2 e (0 : Fin 1)) = ix1 e := funext fun a => Fin.ext (by match a with | ⟨0, _⟩ => rfl)
  rw [val_main_v57_apply, hi, v56_at]

/-- The scatter-adds' index column holds the raw destination words. -/
theorem v45_at (e : Fin 1700000) : val_main_v45 (F := Ideal) a1 (ix2 e 0) = dstW a1 e := by
  have hi : idx_main_v45 (ix2 e (0 : Fin 1)) = ix1 e := funext fun a => Fin.ext (by match a with | ⟨0, _⟩ => rfl)
  rw [val_main_v45_apply, hi]

theorem v63_at (e : Fin 1700000) : val_main_v63 (F := Ideal) a1 (ix2 e 0) = dstW a1 e := by
  have hi : idx_main_v63 (ix2 e (0 : Fin 1)) = ix1 e := funext fun a => Fin.ext (by match a with | ⟨0, _⟩ => rfl)
  rw [val_main_v63_apply, hi]

/-! ### The edge factor -/

/-- The scale gathered at the source words: the scale of the node the normalised source word names. -/
theorem v23_at (e : Fin 1700000) :
    val_main_v23 (F := Ideal) a1 (ix1 e) = scale a1 (Spec.rowOf (Spec.nrmW (srcW a1 e))) := by
  have hd : gather_S100000_S1700000x1_S1700000_n_0_n_n_0_1_1
      = vecDims 100000 1700000 Gen.gather_S100000_S1700000x1_S1700000_n_0_n_n_0_1_1_wf := rfl
  have hg : val_main_v23 (F := Ideal) a1 (ix1 e)
      = val_main_v16 (F := Ideal) a1 (ix1 (Spec.rowOf (val_main_v22 (F := Ideal) a1 (ix2 e 0)))) := by
    unfold val_main_v23; rw [hd]; exact gather_vec_apply (by decide) _ _ _ e
  rw [hg, v22_at]

/-- The scale gathered at the destination words. -/
theorem v31_at (e : Fin 1700000) :
    val_main_v31 (F := Ideal) a1 (ix1 e) = scale a1 (Spec.rowOf (Spec.nrmW (dstW a1 e))) := by
  have hd : gather_S100000_S1700000x1_S1700000_n_0_n_n_0_1_1
      = vecDims 100000 1700000 Gen.gather_S100000_S1700000x1_S1700000_n_0_n_n_0_1_1_wf := rfl
  have hg : val_main_v31 (F := Ideal) a1 (ix1 e)
      = val_main_v16 (F := Ideal) a1 (ix1 (Spec.rowOf (val_main_v30 (F := Ideal) a1 (ix2 e 0)))) := by
    unfold val_main_v31; rw [hd]; exact gather_vec_apply (by decide) _ _ _ e
  rw [hg, v30_at]

/-- The edge factor: (scale of the source · the unit weight) · scale of the destination. -/
theorem v32_at (e : Fin 1700000) :
    val_main_v32 (F := Ideal) a1 (ix1 e) = Spec.edgeNorm (scale a1) (srcW a1) (dstW a1) e := by
  rw [val_main_v32_apply, val_main_v24_apply, v23_at, v31_at, val_main_v7_apply, val_main_cst_apply]
  simp only [Ideal.mulf_def, Ideal.ofBits_def, one_word]
  rfl

/-- The edge factor laid along 128 columns. -/
theorem v42_at (e : Fin 1700000) (f : Fin 128) :
    val_main_v42 (F := Ideal) a1 (ix2 e f) = Spec.edgeNorm (scale a1) (srcW a1) (dstW a1) e := by
  have h1 : idx_main_v42 (ix2 e f) = ix2 e (0 : Fin 1) := funext fun a => Fin.ext (by match a with | ⟨0, _⟩ => rfl | ⟨1, _⟩ => rfl)
  have h2 : idx_main_v41 (ix2 e (0 : Fin 1)) = ix1 e := funext fun a => Fin.ext (by match a with | ⟨0, _⟩ => rfl)
  rw [val_main_v42_apply, h1, val_main_v41_apply, h2, v32_at]

/-- The edge factor laid along 64 columns. -/
theorem v60_at (e : Fin 1700000) (g : Fin 64) :
    val_main_v60 (F := Ideal) a1 (ix2 e g) = Spec.edgeNorm (scale a1) (srcW a1) (dstW a1) e := by
  have h1 : idx_main_v60 (ix2 e g) = ix2 e (0 : Fin 1) := funext fun a => Fin.ext (by match a with | ⟨0, _⟩ => rfl | ⟨1, _⟩ => rfl)
  have h2 : idx_main_v59 (ix2 e (0 : Fin 1)) = ix1 e := funext fun a => Fin.ext (by match a with | ⟨0, _⟩ => rfl)
  rw [val_main_v60_apply, h1, val_main_v59_apply, h2, v32_at]

/-! ### The first layer -/

/-- The first projection. -/
theorem v33_at (n : Fin 100000) (f : Fin 128) :
    val_main_v33 (F := Ideal) a0 a2 (ix2 n f) = Spec.proj (fun n k => a0 (ix2 n k)) a2 n f := by
  rw [val_main_v33_apply]
  unfold Spec.proj
  refine Finset.sum_congr rfl fun k _ => ?_
  have hl : lidx_main_v33 (ix2 n f) k = ix2 n k := funext fun a => Fin.ext (by match a with | ⟨0, _⟩ => rfl | ⟨1, _⟩ => rfl)
  have hr : ridx_main_v33 (ix2 n f) k = ix2 k f := funext fun a => Fin.ext (by match a with | ⟨0, _⟩ => rfl | ⟨1, _⟩ => rfl)
  rw [hl, hr]

theorem v44_zero (i : S100000x128.Idx) : val_main_v44 (F := Ideal) i = 0 := by
  rw [val_main_v44_apply, val_main_cst_9_apply]
  exact Ideal.ofBits_zero_f32

/-- The first aggregation. -/
theorem v46_at (j : Fin 100000) (f : Fin 128) :
    val_main_v46 (F := Ideal) a0 a1 a2 (ix2 j f)
      = Spec.aggNorm (scale a1) (srcW a1) (dstW a1) (Spec.proj (fun n k => a0 (ix2 n k)) a2) j f := by
  have hg : gather_S100000x128_S1700000x1_S1700000x128_1_0_n_n_0_1_1128
      = rowsDims 100000 1700000 128 Gen.gather_S100000x128_S1700000x1_S1700000x128_1_0_n_n_0_1_1128_wf := rfl
  have hs : scatter_S100000x128_S1700000x1_S1700000x128_1_0_0_1
      = rowsScatterDims 100000 1700000 128 Gen.scatter_S100000x128_S1700000x1_S1700000x128_1_0_0_1_wf := rfl
  have hT : (fun (n : Fin 100000) (c : Fin 128) => val_main_v33 (F := Ideal) a0 a2 (ix2 n c))
      = Spec.proj (fun n k => a0 (ix2 n k)) a2 := funext fun n => funext fun c => v33_at a0 a2 n c
  unfold val_main_v46 val_main_v43 val_main_v40
  rw [hg, hs, ← hT]
  exact agg_norm_apply _ _ _ v44_zero _ _ _ _ (scale a1) (srcW a1) (dstW a1) (v39_at a1) (v45_at a1) (v42_at a1) j f

/-- The hidden layer: the bias added, negative entries cut to 0. -/
theorem v50_at (n : Fin 100000) (f : Fin 128) :
    val_main_v50 (F := Ideal) a0 a1 a2 a3 (ix2 n f)
      = Spec.hidN (fun n k => a0 (ix2 n k)) a2 (fun f => a3 (ix1 f)) (scale a1) (srcW a1) (dstW a1) n f := by
  have hb : idx_main_v47 (idx_main_v48 (ix2 n f)) = ix1 f := funext fun a => Fin.ext (by match a with | ⟨0, _⟩ => rfl)
  rw [val_main_v50_apply, val_main_v49_apply, v46_at, val_main_v48_apply, val_main_v47_apply, hb,
    val_main_call1_v0_apply, val_main_call1_cst_apply]
  simp only [Ideal.maximumf_def, Ideal.addf_def, Ideal.ofBits_def, Ideal.ofBits_zero_f32]
  rfl

/-! ### The second layer -/

/-- The second projection, of the hidden layer. -/
theorem v51_at (n : Fin 100000) (g : Fin 64) :
    val_main_v51 (F := Ideal) a0 a1 a2 a3 a4 (ix2 n g)
      = Spec.proj (Spec.hidN (fun n k => a0 (ix2 n k)) a2 (fun f => a3 (ix1 f)) (scale a1) (srcW a1) (dstW a1)) a4 n g := by
  rw [val_main_v51_apply]
  unfold Spec.proj
  refine Finset.sum_congr rfl fun k _ => ?_
  have hl : lidx_main_v51 (ix2 n g) k = ix2 n k := funext fun a => Fin.ext (by match a with | ⟨0, _⟩ => rfl | ⟨1, _⟩ => rfl)
  have hr : ridx_main_v51 (ix2 n g) k = ix2 k g := funext fun a => Fin.ext (by match a with | ⟨0, _⟩ => rfl | ⟨1, _⟩ => rfl)
  rw [hl, hr, v50_at]

theorem v62_zero (i : S100000x64.Idx) : val_main_v62 (F := Ideal) i = 0 := by
  rw [val_main_v62_apply, val_main_cst_12_apply]
  exact Ideal.ofBits_zero_f32

/-- The second aggregation. -/
theorem v64_at (j : Fin 100000) (g : Fin 64) :
    val_main_v64 (F := Ideal) a0 a1 a2 a3 a4 (ix2 j g)
      = Spec.aggNorm (scale a1) (srcW a1) (dstW a1)
          (Spec.proj (Spec.hidN (fun n k => a0 (ix2 n k)) a2 (fun f => a3 (ix1 f)) (scale a1) (srcW a1) (dstW a1)) a4) j g := by
  have hg : gather_S100000x64_S1700000x1_S1700000x64_1_0_n_n_0_1_164
      = rowsDims 100000 1700000 64 Gen.gather_S100000x64_S1700000x1_S1700000x64_1_0_n_n_0_1_164_wf := rfl
  have hs : scatter_S100000x64_S1700000x1_S1700000x64_1_0_0_1
      = rowsScatterDims 100000 1700000 64 Gen.scatter_S100000x64_S1700000x1_S1700000x64_1_0_0_1_wf := rfl
  have hT : (fun (n : Fin 100000) (c : Fin 64) => val_main_v51 (F := Ideal) a0 a1 a2 a3 a4 (ix2 n c))
      = Spec.proj (Spec.hidN (fun n k => a0 (ix2 n k)) a2 (fun f => a3 (ix1 f)) (scale a1) (srcW a1) (dstW a1)) a4 :=
    funext fun n => funext fun c => v51_at a0 a1 a2 a3 a4 n c
  unfold val_main_v64 val_main_v61 val_main_v58
  rw [hg, hs, ← hT]
  exact agg_norm_apply _ _ _ v62_zero _ _ _ _ (scale a1) (srcW a1) (dstW a1) (v57_at a1) (v63_at a1) (v60_at a1) j g

/-- The result at (n, g). -/
theorem v67_at (n : Fin 100000) (g : Fin 64) :
    val_main_v67 (F := Ideal) a0 a1 a2 a3 a4 a5 (ix2 n g)
      = Spec.outNorm (fun n k => a0 (ix2 n k)) a2 (fun f => a3 (ix1 f)) a4 (fun g => a5 (ix1 g))
          (scale a1) (srcW a1) (dstW a1) n g := by
  have hb : idx_main_v65 (idx_main_v66 (ix2 n g)) = ix1 g := funext fun a => Fin.ext (by match a with | ⟨0, _⟩ => rfl)
  rw [val_main_v67_apply, v64_at, val_main_v66_apply, val_main_v65_apply, hb]
  rfl

end Stages

/-! ## The reference's result -/

/-- The reference's result is the second arrangement's, at the node scale, source words and destination words the
    program computes. -/
theorem ref_is_outNorm (a0 : (⟨S100000x128, .f32⟩ : BufTy).Contents (Elt Ideal)) (a1 : (⟨S2x1600000, .i32⟩ : BufTy).Contents (Elt Ideal))
    (a2 : (⟨S128x128, .f32⟩ : BufTy).Contents (Elt Ideal)) (a3 : (⟨S128, .f32⟩ : BufTy).Contents (Elt Ideal))
    (a4 : (⟨S128x64, .f32⟩ : BufTy).Contents (Elt Ideal)) (a5 : (⟨S64, .f32⟩ : BufTy).Contents (Elt Ideal)) :
    ReadP.val_main_v67 (F := Ideal) a0 a1 a2 a3 a4 a5
      = fun i => Spec.outNorm (fun n k => a0 (ix2 n k)) a2 (fun f => a3 (ix1 f)) a4 (fun g => a5 (ix1 g))
          (fun n => ReadP.val_main_v16 (F := Ideal) a1 (ix1 n))
          (fun e => ReadP.val_main_v5 (F := Ideal) a1 (ix1 e))
          (fun e => ReadP.val_main_v6 (F := Ideal) a1 (ix1 e))
          (i 0) (i 1) := by
  funext i
  obtain ⟨n, g, rfl⟩ : ∃ (n : Fin 100000) (g : Fin 64), i = ix2 n g := ⟨i 0, i 1, eq_ix2 i⟩
  exact v67_at a0 a1 a2 a3 a4 a5 n g

end Cert.RefValue

end
-- ==== Proof.Algebra.lean ====
/-
  The two arrangements of the graph convolution agree when every node's scale is a non-negative real number.

  Three facts carry it. (1) A destination word that reads, signed, as a node j in range is not negative, so
  normalising it changes nothing and clamping it gives j back: on every edge that lands on j the destination's
  scale is d j. (2) A non-negative extended real other than +∞ distributes over any finite sum of extended reals,
  infinite summands included. (3) Multiplication of extended reals is associative, so
  (row · d source) · d j = row · ((d source · 1) · d j). Hence scaling the aggregate by d j is aggregating the rows
  times their edges' factors; the two hidden layers are then the same table, and so are the two results.
-/
import proofs.«170234_j65386582114681_2_alg».proof.Proof.Spec
import Mathlib.Data.EReal.Operations

noncomputable section

open scoped BigOperators

namespace Cert.Spec

open Idealize.ShloMosaic Idealize.ShloMosaic.ValueIdx

/-- A word that reads, signed, as a node in range normalises to itself and clamps to that node. -/
theorem rowOf_nrmW_of_toInt {w : BitVec 32} {j : Fin 100000} (h : w.toInt = (j.val : Int)) :
    rowOf (nrmW w) = j := by
  have hj := j.isLt
  have hns : ¬ (w.slt 0#32 = true) := by
    simp only [BitVec.slt, BitVec.toInt_zero, decide_eq_true_eq, h]
    omega
  unfold nrmW
  rw [if_neg hns]
  unfold rowOf
  refine Fin.ext ?_
  show min w.toInt.toNat (100000 - 1) = j.val
  rw [h]
  omega

/-- A non-negative extended real other than +∞ distributes over a finite sum. -/
theorem sum_mul_of_nonneg_of_ne_top {ι : Type} (s : Finset ι) (a : ι → EReal) {r : EReal}
    (h0 : 0 ≤ r) (ht : r ≠ ⊤) : (∑ e ∈ s, a e) * r = ∑ e ∈ s, a e * r := by
  classical
  induction s using Finset.induction_on with
  | empty => simp
  | insert e s he ih =>
    rw [Finset.sum_insert he, Finset.sum_insert he, EReal.right_distrib_of_nonneg_of_ne_top h0 ht, ih]

section Layers

variable (d : Fin 100000 → EReal) (rowW colW : Fin 1700000 → BitVec 32)

/-- Scaling the aggregate of pre-scaled rows by the destination's scale is aggregating the rows times their
    edges' factors. -/
theorem aggPre_mul_eq_aggNorm {C : Nat} (hd : ∀ n, 0 ≤ d n ∧ d n ≠ ⊤) (T : Fin 100000 → Fin C → EReal)
    (j : Fin 100000) (f : Fin C) :
    aggPre rowW colW (fun n f => T n f * d n) j f * d j = aggNorm d rowW colW T j f := by
  unfold aggPre aggNorm
  rw [sum_mul_of_nonneg_of_ne_top _ _ (hd j).1 (hd j).2]
  refine Finset.sum_congr rfl fun e _ => ?_
  by_cases hP : (colW e).toInt = (j.val : Int)
  · rw [if_pos hP, if_pos hP]
    unfold edgeNorm
    rw [rowOf_nrmW_of_toInt hP, mul_one, mul_assoc]
  · rw [if_neg hP, if_neg hP, zero_mul]

variable (x : Fin 100000 → Fin 128 → EReal) (w1 : (⟨2, ![128, 128]⟩ : Shape).Idx → EReal) (b1 : Fin 128 → EReal)
  (w2 : (⟨2, ![128, 64]⟩ : Shape).Idx → EReal) (b2 : Fin 64 → EReal)

/-- The two hidden layers are one table. -/
theorem hid1_eq_hidN (hd : ∀ n, 0 ≤ d n ∧ d n ≠ ⊤) :
    hid1 x w1 b1 d rowW colW = hidN x w1 b1 d rowW colW := by
  funext n f
  unfold hid1 hidN
  rw [show pre1 x w1 d = fun n f => proj x w1 n f * d n from rfl, aggPre_mul_eq_aggNorm d rowW colW hd]

/-- The two arrangements give the same result. -/
theorem outPre_eq_outNorm (hd : ∀ n, 0 ≤ d n ∧ d n ≠ ⊤) :
    outPre x w1 b1 w2 b2 d rowW colW = outNorm x w1 b1 w2 b2 d rowW colW := by
  funext n g
  unfold outPre outNorm
  rw [show pre2 x w1 b1 w2 d rowW colW = fun n g => proj (hid1 x w1 b1 d rowW colW) w2 n g * d n from rfl,
    aggPre_mul_eq_aggNorm d rowW colW hd, hid1_eq_hidN d rowW colW x w1 b1 hd]

end Layers

/-! ### A node's scale is a non-negative real -/

/-- Whatever the degree reads as, the reciprocal square root of its maximum with 1 is a non-negative real. -/
theorem rsqrt_max_one_nonneg (v : EReal) :
    0 ≤ Ideal.rsqrt (max v 1) ∧ Ideal.rsqrt (max v 1) ≠ ⊤ := by
  -- the reciprocal square root of a positive real is a positive real
  have key : ∀ r : ℝ, 0 < r → 0 ≤ Ideal.rsqrt (r : EReal) ∧ Ideal.rsqrt (r : EReal) ≠ ⊤ := fun r hr => by
    rw [Ideal.rsqrt_coe, if_neg (not_lt.mpr hr.le), if_neg hr.ne']
    exact ⟨EReal.coe_nonneg.mpr (inv_nonneg.mpr (Real.sqrt_nonneg _)), EReal.coe_ne_top _⟩
  have one : 0 ≤ Ideal.rsqrt (1 : EReal) ∧ Ideal.rsqrt (1 : EReal) ≠ ⊤ := by
    have h := key 1 one_pos
    rwa [EReal.coe_one] at h
  induction v using EReal.rec with
  | bot =>
    rw [max_eq_right bot_le]
    exact one
  | top =>
    rw [max_eq_left le_top, Ideal.rsqrt_top]
    exact ⟨le_refl _, EReal.zero_ne_top⟩
  | coe r =>
    rcases le_total r 1 with h | h
    · have h' : (r : EReal) ≤ 1 := by rw [← EReal.coe_one]; exact EReal.coe_le_coe_iff.mpr h
      rw [max_eq_right h']
      exact one
    · have h' : (1 : EReal) ≤ (r : EReal) := by rw [← EReal.coe_one]; exact EReal.coe_le_coe_iff.mpr h
      rw [max_eq_left h']
      exact key r (lt_of_lt_of_le one_pos h)

end Cert.Spec

end
-- ==== Proof.Bridge.lean ====
/-
  The kernel program's first host operations compute the same edge words and the same node scale as the
  reference, and the node scale is a non-negative real number.

  Both programs begin alike: the two rows of the edge list are cut out, each is extended by one self loop per node
  (the source words and the destination words), ones are scatter-added at the destination words (the degree), and the
  scale of a node is the reciprocal square root of the larger of its degree and 1 where the degree is positive and 0
  elsewhere. The kernel program's buffers after these operations therefore hold, as functions of the edge list it
  was launched with, exactly the vectors the reference's reading names. The reciprocal square root of a number at
  least 1 is a positive real, and the other branch is 0, so every scale is a non-negative real.
-/
import proofs.«170234_j65386582114681_2_alg».proof.Proof.Gen.KernelIdeal.Frame
import proofs.«170234_j65386582114681_2_alg».proof.Proof.RefRead
import proofs.«170234_j65386582114681_2_alg».proof.Proof.Algebra
import Idealize.ShloMosaic.PureOps.Ideal.Laws
import Idealize.ShloMosaic.Lib.StableHlo.Run
import Idealize.ShloMosaic.Lib.ValueIdx

noncomputable section

namespace Cert.Bridge

open Cert.KernelIdeal Cert.KernelIdeal.Gen Idealize.ShloMosaic Idealize.ShloMosaic.TcCoe Idealize.SL.Sem
  Idealize.ShloMosaic.StableHlo Idealize.ShloMosaic.ValueIdx

/-! ## The node scale is a non-negative real -/

/-- The word 0x3F800000 encodes the real number 1. -/
private theorem one_word : Ideal.ofBits .f32 0x3F800000#32 = 1 := by
  simp [Ideal.ofBits, Ideal.ieee, -EReal.coe_mul]; norm_num

/-- A node's scale is the reciprocal square root of the larger of its degree and 1, or 0: a non-negative real
    either way. -/
theorem scale_nonneg (a1 : (⟨Cert.ReferenceIdeal.S2x1600000, .i32⟩ : BufTy).Contents (Elt Ideal)) (n : Fin 100000) :
    0 ≤ Cert.ReferenceIdeal.ReadP.val_main_v16 (F := Ideal) a1 (ix1 n)
      ∧ Cert.ReferenceIdeal.ReadP.val_main_v16 (F := Ideal) a1 (ix1 n) ≠ ⊤ := by
  rw [Cert.ReferenceIdeal.ReadP.val_main_v16_apply, Cert.ReferenceIdeal.ReadP.val_main_v15_apply,
    Cert.ReferenceIdeal.ReadP.val_main_v14_apply, Cert.ReferenceIdeal.ReadP.val_main_v13_apply,
    Cert.ReferenceIdeal.ReadP.val_main_cst_2_apply, Cert.ReferenceIdeal.ReadP.val_main_call0_v1_apply,
    Cert.ReferenceIdeal.ReadP.val_main_call0_v0_apply, Cert.ReferenceIdeal.ReadP.val_main_cst_3_apply]
  simp only [Ideal.hostUnary_rsqrt_def, Ideal.maximumf_def, Ideal.ofBits_def, one_word, Ideal.ofBits_zero_f32]
  unfold Scalar.select
  split
  · exact Cert.Spec.rsqrt_max_one_nonneg _
  · exact ⟨le_refl _, EReal.zero_ne_top⟩

/-! ## The kernel program's edge words and node scale are the reference's -/

section Fold

variable (m : (ℓ : Loc nD τ sig) → Buf (Elt Ideal) ℓ) (ρ : Dev nD → PrngReg) (c : Dev nD)

/-- After its first host operations the kernel program's source words are the reference's, read off the edge list
    it was launched with. -/
theorem rowK_eq : (W1 (F := Ideal) m ρ c (Proc.devRef .tc main_v5) : S1700000.Idx → BitVec 32)
    = Cert.ReferenceIdeal.ReadP.val_main_v5 (F := Ideal) (m ((c : Thread nD τ).loc main_arg1)) := by
  show StableHlo.after hostOps0 (W0 m ρ c) (Proc.devRef .tc main_v5) = _
  after_results
  unfold Cert.ReferenceIdeal.ReadP.val_main_v5 Cert.ReferenceIdeal.ReadP.val_main_v1 Cert.ReferenceIdeal.ReadP.val_main_v0
    Cert.ReferenceIdeal.ReadP.val_main_v4
  rfl

/-- The same for the destination words. -/
theorem colK_eq : (W1 (F := Ideal) m ρ c (Proc.devRef .tc main_v6) : S1700000.Idx → BitVec 32)
    = Cert.ReferenceIdeal.ReadP.val_main_v6 (F := Ideal) (m ((c : Thread nD τ).loc main_arg1)) := by
  show StableHlo.after hostOps0 (W0 m ρ c) (Proc.devRef .tc main_v6) = _
  after_results
  unfold Cert.ReferenceIdeal.ReadP.val_main_v6 Cert.ReferenceIdeal.ReadP.val_main_v3 Cert.ReferenceIdeal.ReadP.val_main_v2
    Cert.ReferenceIdeal.ReadP.val_main_v4
  rfl

/-- The kernel program's "degree is positive" bits are the reference's. -/
theorem posK_eq : (W1 (F := Ideal) m ρ c (Proc.devRef .tc main_v12) : S100000.Idx → BitVec 1)
    = Cert.ReferenceIdeal.ReadP.val_main_v12 (F := Ideal) (m ((c : Thread nD τ).loc main_arg1)) := by
  show StableHlo.after hostOps0 (W0 m ρ c) (Proc.devRef .tc main_v12) = _
  after_results
  unfold Cert.ReferenceIdeal.ReadP.val_main_v12 Cert.ReferenceIdeal.ReadP.val_main_v11 Cert.ReferenceIdeal.ReadP.val_main_cst_1 Cert.ReferenceIdeal.ReadP.val_main_v10 Cert.ReferenceIdeal.ReadP.val_main_v8 Cert.ReferenceIdeal.ReadP.val_main_cst_0 Cert.ReferenceIdeal.ReadP.val_main_v9 Cert.ReferenceIdeal.ReadP.val_main_v7 Cert.ReferenceIdeal.ReadP.val_main_cst Cert.ReferenceIdeal.ReadP.val_main_v6 Cert.ReferenceIdeal.ReadP.val_main_v3 Cert.ReferenceIdeal.ReadP.val_main_v2 Cert.ReferenceIdeal.ReadP.val_main_v4
  rfl

/-- The kernel program's reciprocal square roots are the reference's. -/
theorem rsqrtK_eq : (W1 (F := Ideal) m ρ c (Proc.devRef .tc main_v15) : S100000.Idx → EReal)
    = Cert.ReferenceIdeal.ReadP.val_main_v15 (F := Ideal) (m ((c : Thread nD τ).loc main_arg1)) := by
  show StableHlo.after hostOps0 (W0 m ρ c) (Proc.devRef .tc main_v15) = _
  after_results
  unfold Cert.ReferenceIdeal.ReadP.val_main_v15 Cert.ReferenceIdeal.ReadP.val_main_v14 Cert.ReferenceIdeal.ReadP.val_main_v13 Cert.ReferenceIdeal.ReadP.val_main_cst_2 Cert.ReferenceIdeal.ReadP.val_main_v10 Cert.ReferenceIdeal.ReadP.val_main_v8 Cert.ReferenceIdeal.ReadP.val_main_cst_0 Cert.ReferenceIdeal.ReadP.val_main_v9 Cert.ReferenceIdeal.ReadP.val_main_v7 Cert.ReferenceIdeal.ReadP.val_main_cst Cert.ReferenceIdeal.ReadP.val_main_v6 Cert.ReferenceIdeal.ReadP.val_main_v3 Cert.ReferenceIdeal.ReadP.val_main_v2 Cert.ReferenceIdeal.ReadP.val_main_v4
  rfl

/-- The constant 0 the scale takes where the degree is not positive. -/
theorem zeroK_eq : (W1 (F := Ideal) m ρ c (Proc.devRef .tc main_cst_3) : S_.Idx → EReal)
    = Cert.ReferenceIdeal.ReadP.val_main_cst_3 (F := Ideal) := by
  show StableHlo.after hostOps0 (W0 m ρ c) (Proc.devRef .tc main_cst_3) = _
  after_results
  rfl

set_option maxRecDepth 16384 in
/-- After the outlined selection the kernel program's node scale is the reference's, read off the edge list it was
    launched with. -/
theorem disK_eq : (W2 (F := Ideal) m ρ c (Proc.devRef .tc main_v16) : S100000.Idx → EReal)
    = Cert.ReferenceIdeal.ReadP.val_main_v16 (F := Ideal) (m ((c : Thread nD τ).loc main_arg1)) := by
  have h12 := posK_eq m ρ c
  have h15 := rsqrtK_eq m ρ c
  have h3 := zeroK_eq m ρ c
  show StableHlo.after hostOps0_1 (W1 m ρ c) (Proc.devRef .tc main_v16) = _
  generalize W1 (F := Ideal) m ρ c = V at h12 h15 h3 ⊢
  after_results_simp
  show select (V (Proc.devRef .tc main_v12)) (V (Proc.devRef .tc main_v15))
      (broadcastInDim S100000 ![] bcast_S_S100000 (id (V (Proc.devRef .tc main_cst_3)))) = _
  rw [h12, h15, h3]
  rfl

end Fold

end Cert.Bridge

end
-- ==== Proof.lean ====
/-
  The proof of `Cert.Claim`: the three frames, the idealization's ledger (empty), and the equality of the idealized
  kernel's and the idealized reference's results as extended reals.

  Both programs compute a two-layer graph convolution over 100000 nodes with 1700000 edges (the given ones and a
  self loop per node), with the same node scale d — the reciprocal square root of the degree's maximum with 1 where
  the degree is positive, 0 elsewhere —, the same source words and the same destination words, all functions of the
  edge array alone. The kernel scales every projected row by d before gathering it and scales the aggregate by d
  afterwards; the reference multiplies every gathered row by (d source · 1) · d destination before aggregating. On
  every edge that lands on node j the destination's scale is d j, and d j is a non-negative real, which
  distributes over any sum of extended reals: the two arrangements agree, with no assumption on the float inputs.
-/
import proofs.«170234_j65386582114681_2_alg».proof.Defs
import proofs.«170234_j65386582114681_2_alg».proof.Proof.Gen.Kernel
import proofs.«170234_j65386582114681_2_alg».proof.Proof.Gen.Kernel.Skeleton
import proofs.«170234_j65386582114681_2_alg».proof.Proof.Gen.Kernel.Launch
import proofs.«170234_j65386582114681_2_alg».proof.Proof.Gen.Kernel.Points
import proofs.«170234_j65386582114681_2_alg».proof.Proof.Gen.Kernel.Frame
import proofs.«170234_j65386582114681_2_alg».proof.Proof.Gen.KernelIdeal
import proofs.«170234_j65386582114681_2_alg».proof.Proof.Gen.KernelIdeal.Skeleton
import proofs.«170234_j65386582114681_2_alg».proof.Proof.Gen.KernelIdeal.Launch
import proofs.«170234_j65386582114681_2_alg».proof.Proof.Gen.KernelIdeal.Points
import proofs.«170234_j65386582114681_2_alg».proof.Proof.Gen.KernelIdeal.Frame
import proofs.«170234_j65386582114681_2_alg».proof.Proof.Gen.ReferenceIdeal
import proofs.«170234_j65386582114681_2_alg».proof.Proof.Gen.Pre_finite_inputs
import proofs.«170234_j65386582114681_2_alg».proof.Proof.KernelRun
import proofs.«170234_j65386582114681_2_alg».proof.Proof.KernelValue
import proofs.«170234_j65386582114681_2_alg».proof.Proof.RefValue
import proofs.«170234_j65386582114681_2_alg».proof.Proof.Algebra
import proofs.«170234_j65386582114681_2_alg».proof.Proof.Bridge
import Idealize.ShloMosaic.Adequacy
import Idealize.ShloMosaic.Init

set_option maxRecDepth 16384

noncomputable section

namespace Cert.Proof

open Idealize.ShloMosaic Idealize.SL.Sem Idealize.ShloMosaic.ValueIdx

/-- The word-level kernel runs and leaves its arguments as launched. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The idealized reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote nothing: the ledger is empty. -/
theorem preserves : Cert.preserves_Kernel_KernelIdeal := trivial

/-- The two idealized programs end with equal results: the kernel's is the first arrangement of the specification
    (the fold of its segments read at the result), the reference's the second (its operations read one at a time),
    at the same scale and index words, and the two arrangements agree because the scale is a non-negative real. -/
theorem algebraic : Cert.algebraic_KernelIdeal_ReferenceIdeal := by
  intro m ρ m' ρ' _ hagree
  refine ⟨fun c => fun i => Spec.outPre (Cert.KernelValue.xK m c) (Cert.KernelValue.w1K m c) (Cert.KernelValue.b1K m c)
      (Cert.KernelValue.w2K m c) (Cert.KernelValue.b2K m c) (Cert.KernelValue.disK m ρ c) (Cert.KernelValue.rowK m ρ c)
      (Cert.KernelValue.colK m ρ c) (i 0) (i 1), ?_, ?_⟩
  · exact (θ_run Cert.KernelIdeal.defs _ _).mono
      (fun r h c => ⟨(h c).1.trans (Cert.KernelValue.kernel_value m ρ c), (h c).2⟩)
      (Cert.KernelValue.run_result (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v67_eq, Cert.RefValue.ref_is_outNorm, (hagree c).1, (hagree c).2.1,
      (hagree c).2.2.1, (hagree c).2.2.2.1, (hagree c).2.2.2.2.1, (hagree c).2.2.2.2.2]
    funext i
    have hd : ∀ n : Fin 100000, 0 ≤ Cert.KernelValue.disK m ρ c n ∧ Cert.KernelValue.disK m ρ c n ≠ ⊤ := fun n => by
      have h := Cert.Bridge.scale_nonneg (m ((c.tc : Thread Cert.KernelIdeal.nD Cert.KernelIdeal.τ).loc Cert.KernelIdeal.main_arg1)) n
      rw [← Cert.Bridge.disK_eq m ρ c] at h
      exact h
    have hdK : Cert.KernelValue.disK m ρ c = fun n => Cert.ReferenceIdeal.ReadP.val_main_v16 (F := Ideal)
        (m ((c.tc : Thread Cert.KernelIdeal.nD Cert.KernelIdeal.τ).loc Cert.KernelIdeal.main_arg1)) (ix1 n) :=
      funext fun n => congrFun (Cert.Bridge.disK_eq m ρ c) (ix1 n)
    have hrK : Cert.KernelValue.rowK m ρ c = fun e => Cert.ReferenceIdeal.ReadP.val_main_v5 (F := Ideal)
        (m ((c.tc : Thread Cert.KernelIdeal.nD Cert.KernelIdeal.τ).loc Cert.KernelIdeal.main_arg1)) (ix1 e) :=
      funext fun e => congrFun (Cert.Bridge.rowK_eq m ρ c) (ix1 e)
    have hcK : Cert.KernelValue.colK m ρ c = fun e => Cert.ReferenceIdeal.ReadP.val_main_v6 (F := Ideal)
        (m ((c.tc : Thread Cert.KernelIdeal.nD Cert.KernelIdeal.τ).loc Cert.KernelIdeal.main_arg1)) (ix1 e) :=
      funext fun e => congrFun (Cert.Bridge.colK_eq m ρ c) (ix1 e)
    show _ = Spec.outPre (Cert.KernelValue.xK m c) (Cert.KernelValue.w1K m c) (Cert.KernelValue.b1K m c)
      (Cert.KernelValue.w2K m c) (Cert.KernelValue.b2K m c) (Cert.KernelValue.disK m ρ c) (Cert.KernelValue.rowK m ρ c)
      (Cert.KernelValue.colK m ρ c) (i 0) (i 1)
    rw [Spec.outPre_eq_outNorm (Cert.KernelValue.disK m ρ c) (Cert.KernelValue.rowK m ρ c) (Cert.KernelValue.colK m ρ c)
      (Cert.KernelValue.xK m c) (Cert.KernelValue.w1K m c) (Cert.KernelValue.b1K m c) (Cert.KernelValue.w2K m c)
      (Cert.KernelValue.b2K m c) hd, hdK, hrK, hcK]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
